-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S1000x2048 : Shape := ⟨2, ![1000, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1000 : S_.BroadcastsInDim S512x1000 (![] : Fin 0 → Fin S512x1000.rank)
  reducesTo_S512x1000_S_d0_1 : S512x1000.ReducesTo [0, 1] S_
  bcast_S_S1000 : S_.BroadcastsInDim S1000 (![] : Fin 0 → Fin S1000.rank)
  reducesTo_S1000_S_d0 : S1000.ReducesTo [0] S_

variable [Facts]

def fn_part6 {F : FTy → Type} [FloatOps F] (main_v98 : IVec S_ 1) (main_v101 : IVec S1000 1) (main_c_39 : IVec S_ 1) : IVec S_ 1 :=
  let main_v102 : IVec S_ 1 := (fun x v => Host.reduce IntOp.andi x v reducesTo_S1000_S_d0 h_S_) main_v101 main_c_39
  let main_v103 : IVec S_ 1 := andi main_v98 main_v102
  main_v103

def fn_part5 {F : FTy → Type} [FloatOps F] (main_arg18 : FVec F S512 .f32) (main_arg19 : FVec F S512x1000 .f32) (main_arg20 : FVec F S1000 .f32) (main_v83 : IVec S_ 1) (main_v84 : FVec F S1024x512 .f32) (main_cst_32 : FVec F S_ .f32) : IVec S_ 1 :=
  let main_v85 : FVec F S1024x512 .f32 := broadcastInDim S1024x512 ![] bcast_S_S1024x512 main_cst_32
  let main_v86 : IVec S1024x512 1 := cmpf .olt main_v84 main_v85
  let main_c_33 : IVec S_ 1 := constantI S_ 1 1#1
  let main_v87 : IVec S_ 1 := (fun x v => Host.reduce IntOp.andi x v reducesTo_S1024x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x1000 .f32 := Host.absf main_arg19
  let main_cst_36 : FVec F S_ .f32 := constant S_ .f32 0x7F800000#32
  let main_v95 : FVec F S512x1000 .f32 := broadcastInDim S512x1000 ![] bcast_S_S512x1000 main_cst_36
  let main_v96 : IVec S512x1000 1 := cmpf .olt main_v94 main_v95
  let main_c_37 : IVec S_ 1 := constantI S_ 1 1#1
  let main_v97 : IVec S_ 1 := (fun x v => Host.reduce IntOp.andi x v reducesTo_S512x1000_S_d0_1 h_S_) main_v96 main_c_37
  let main_v98 : IVec S_ 1 := andi main_v93 main_v97
  let main_v99 : FVec F S1000 .f32 := Host.absf main_arg20
  let main_cst_38 : FVec F S_ .f32 := constant S_ .f32 0x7F800000#32
  let main_v100 : FVec F S1000 .f32 := broadcastInDim S1000 ![] bcast_S_S1000 main_cst_38
  let main_v101 : IVec S1000 1 := cmpf .olt main_v99 main_v100
  let main_c_39 : IVec S_ 1 := constantI S_ 1 1#1
  fn_part6 (F := F) main_v98 main_v101 main_c_39

def fn_part4 {F : FTy → Type} [FloatOps F] (main_arg14 : FVec F S2048 .f32) (main_arg15 : FVec F S2048x1024 .f32) (main_arg16 : FVec F S1024 .f32) (main_arg17 : FVec F S1024x512 .f32) (main_arg18 : FVec F S512 .f32) (main_arg19 : FVec F S512x1000 .f32) (main_arg20 : FVec F S1000 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x1024 .f32 := Host.absf main_arg15
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x512 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1024x512 .f32) (main_arg12 : FVec F S512 .f32) (main_arg13 : FVec F S1000x2048 .f32) (main_arg14 : FVec F S2048 .f32) (main_arg15 : FVec F S2048x1024 .f32) (main_arg16 : FVec F S1024 .f32) (main_arg17 : FVec F S1024x512 .f32) (main_arg18 : FVec F S512 .f32) (main_arg19 : FVec F S512x1000 .f32) (main_arg20 : FVec F S1000 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x512 .f32 := Host.absf main_arg11
  let main_cst_20 : FVec F S_ .f32 := constant S_ .f32 0x7F800000#32
  let main_v55 : FVec F S1024x512 .f32 := broadcastInDim S1024x512 ![] bcast_S_S1024x512 main_cst_20
  let main_v56 : IVec S1024x512 1 := cmpf .olt main_v54 main_v55
  let main_c_21 : IVec S_ 1 := constantI S_ 1 1#1
  let main_v57 : IVec S_ 1 := (fun x v => Host.reduce IntOp.andi x v reducesTo_S1024x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S1000x2048 .f32 := Host.absf main_arg13
  let main_cst_24 : FVec F S_ .f32 := constant S_ .f32 0x7F800000#32
  let main_v65 : FVec F S1000x2048 .f32 := broadcastInDim S1000x2048 ![] bcast_S_S1000x2048 main_cst_24
  let main_v66 : IVec S1000x2048 1 := cmpf .olt main_v64 main_v65
  let main_c_25 : IVec S_ 1 := constantI S_ 1 1#1
  let main_v67 : IVec S_ 1 := (fun x v => Host.reduce IntOp.andi x v reducesTo_S1000x2048_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S1000x2048 .f32) (main_arg8 : FVec F S2048 .f32) (main_arg9 : FVec F S2048x1024 .f32) (main_arg10 : FVec F S1024 .f32) (main_arg11 : FVec F S1024x512 .f32) (main_arg12 : FVec F S512 .f32) (main_arg13 : FVec F S1000x2048 .f32) (main_arg14 : FVec F S2048 .f32) (main_arg15 : FVec F S2048x1024 .f32) (main_arg16 : FVec F S1024 .f32) (main_arg17 : FVec F S1024x512 .f32) (main_arg18 : FVec F S512 .f32) (main_arg19 : FVec F S512x1000 .f32) (main_arg20 : FVec F S1000 .f32) (main_v33 : IVec S_ 1) : IVec S_ 1 :=
  let main_v34 : FVec F S1000x2048 .f32 := Host.absf main_arg7
  let main_cst_12 : FVec F S_ .f32 := constant S_ .f32 0x7F800000#32
  let main_v35 : FVec F S1000x2048 .f32 := broadcastInDim S1000x2048 ![] bcast_S_S1000x2048 main_cst_12
  let main_v36 : IVec S1000x2048 1 := cmpf .olt main_v34 main_v35
  let main_c_13 : IVec S_ 1 := constantI S_ 1 1#1
  let main_v37 : IVec S_ 1 := (fun x v => Host.reduce IntOp.andi x v reducesTo_S1000x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S1024 .f32) (main_arg5 : FVec F S1024x512 .f32) (main_arg6 : FVec F S512 .f32) (main_arg7 : FVec F S1000x2048 .f32) (main_arg8 : FVec F S2048 .f32) (main_arg9 : FVec F S2048x1024 .f32) (main_arg10 : FVec F S1024 .f32) (main_arg11 : FVec F S1024x512 .f32) (main_arg12 : FVec F S512 .f32) (main_arg13 : FVec F S1000x2048 .f32) (main_arg14 : FVec F S2048 .f32) (main_arg15 : FVec F S2048x1024 .f32) (main_arg16 : FVec F S1024 .f32) (main_arg17 : FVec F S1024x512 .f32) (main_arg18 : FVec F S512 .f32) (main_arg19 : FVec F S512x1000 .f32) (main_arg20 : FVec F S1000 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x1000 .f32) (main_arg1 : FVec F S1000x2048 .f32) (main_arg2 : FVec F S2048 .f32) (main_arg3 : FVec F S2048x1024 .f32) (main_arg4 : FVec F S1024 .f32) (main_arg5 : FVec F S1024x512 .f32) (main_arg6 : FVec F S512 .f32) (main_arg7 : FVec F S1000x2048 .f32) (main_arg8 : FVec F S2048 .f32) (main_arg9 : FVec F S2048x1024 .f32) (main_arg10 : FVec F S1024 .f32) (main_arg11 : FVec F S1024x512 .f32) (main_arg12 : FVec F S512 .f32) (main_arg13 : FVec F S1000x2048 .f32) (main_arg14 : FVec F S2048 .f32) (main_arg15 : FVec F S2048x1024 .f32) (main_arg16 : FVec F S1024 .f32) (main_arg17 : FVec F S1024x512 .f32) (main_arg18 : FVec F S512 .f32) (main_arg19 : FVec F S512x1000 .f32) (main_arg20 : FVec F S1000 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x1000 : Shape := ⟨2, ![4096, 1000]⟩
abbrev S1000x2048 : Shape := ⟨2, ![1000, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S1x2048 : Shape := ⟨2, ![1, 2048]⟩
abbrev S1x1024 : Shape := ⟨2, ![1, 1024]⟩
abbrev S1x512 : Shape := ⟨2, ![1, 512]⟩
abbrev S4096x512 : Shape := ⟨2, ![4096, 512]⟩
abbrev S512x512 : Shape := ⟨2, ![512, 512]⟩
abbrev S512x2048 : Shape := ⟨2, ![512, 2048]⟩
abbrev S512x1024 : Shape := ⟨2, ![512, 1024]⟩
abbrev S4096x8x64 : Shape := ⟨3, ![4096, 8, 64]⟩
abbrev S8x4096x64 : Shape := ⟨3, ![8, 4096, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S64x4096 : Shape := ⟨2, ![64, 4096]⟩
abbrev S512x4096 : Shape := ⟨2, ![512, 4096]⟩
abbrev S512x1 : Shape := ⟨2, ![512, 1]⟩
abbrev S1x1000 : Shape := ⟨2, ![1, 1000]⟩

abbrev nBuf : Space → Nat
  | .hbm => 57
  | .vmem => 44
  | .smem => 0
  | _ => 0

abbrev bufTy : (tb : Table) → Fin (tcTables nBuf tb) → BufTy
  | .hbm, ⟨0, _⟩ => ⟨S4096x1000, .f32⟩
  | .hbm, ⟨1, _⟩ => ⟨S1000x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S1000x2048, .f32⟩
  | .hbm, ⟨8, _⟩ => ⟨S2048, .f32⟩
  | .hbm, ⟨9, _⟩ => ⟨S2048x1024, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S1000x2048, .f32⟩
  | .hbm, ⟨14, _⟩ => ⟨S2048, .f32⟩
  | .hbm, ⟨15, _⟩ => ⟨S2048x1024, .f32⟩
  | .hbm, ⟨16, _⟩ => ⟨S1024, .f32⟩
  | .hbm, ⟨17, _⟩ => ⟨S1024x512, .f32⟩
  | .hbm, ⟨18, _⟩ => ⟨S512, .f32⟩
  | .hbm, ⟨19, _⟩ => ⟨S512x1000, .f32⟩
  | .hbm, ⟨20, _⟩ => ⟨S1000, .f32⟩
  | .hbm, ⟨21, _⟩ => ⟨S1000x2048, .bf16⟩
  | .hbm, ⟨22, _⟩ => ⟨S2048x1024, .bf16⟩
  | .hbm, ⟨23, _⟩ => ⟨S1024x512, .bf16⟩
  | .hbm, ⟨24, _⟩ => ⟨S1x2048, .f32⟩
  | .hbm, ⟨25, _⟩ => ⟨S1x1024, .f32⟩
  | .hbm, ⟨26, _⟩ => ⟨S1x512, .f32⟩
  | .hbm, ⟨27, _⟩ => ⟨S4096x512, .f32⟩
  | .hbm, ⟨28, _⟩ => ⟨S1000x2048, .bf16⟩
  | .hbm, ⟨29, _⟩ => ⟨S2048x1024, .bf16⟩
  | .hbm, ⟨30, _⟩ => ⟨S1024x512, .bf16⟩
  | .hbm, ⟨31, _⟩ => ⟨S1x2048, .f32⟩
  | .hbm, ⟨32, _⟩ => ⟨S1x1024, .f32⟩
  | .hbm, ⟨33, _⟩ => ⟨S1x512, .f32⟩
  | .hbm, ⟨34, _⟩ => ⟨S4096x512, .f32⟩
  | .hbm, ⟨35, _⟩ => ⟨S1000x2048, .bf16⟩
  | .hbm, ⟨36, _⟩ => ⟨S2048x1024, .bf16⟩
  | .hbm, ⟨37, _⟩ => ⟨S1024x512, .bf16⟩
  | .hbm, ⟨38, _⟩ => ⟨S1x2048, .f32⟩
  | .hbm, ⟨39, _⟩ => ⟨S1x1024, .f32⟩
  | .hbm, ⟨40, _⟩ => ⟨S1x512, .f32⟩
  | .hbm, ⟨41, _⟩ => ⟨S4096x512, .f32⟩
  | .hbm, ⟨42, _⟩ => ⟨S4096x8x64, .f32⟩
  | .hbm, ⟨43, _⟩ => ⟨S8x4096x64, .f32⟩
  | .hbm, ⟨44, _⟩ => ⟨S8x4096x64, .bf16⟩
  | .hbm, ⟨45, _⟩ => ⟨S4096x8x64, .f32⟩
  | .hbm, ⟨46, _⟩ => ⟨S8x4096x64, .f32⟩
  | .hbm, ⟨47, _⟩ => ⟨S8x4096x64, .bf16⟩
  | .hbm, ⟨48, _⟩ => ⟨S4096x8x64, .f32⟩
  | .hbm, ⟨49, _⟩ => ⟨S8x4096x64, .f32⟩
  | .hbm, ⟨50, _⟩ => ⟨S8x4096x64, .bf16⟩
  | .hbm, ⟨51, _⟩ => ⟨S8x4096x64, .bf16⟩
  | .hbm, ⟨52, _⟩ => ⟨S4096x8x64, .bf16⟩
  | .hbm, ⟨53, _⟩ => ⟨S4096x512, .bf16⟩
  | .hbm, ⟨54, _⟩ => ⟨S512x1000, .bf16⟩
  | .hbm, ⟨55, _⟩ => ⟨S1x1000, .f32⟩
  | .hbm, ⟨56, _⟩ => ⟨S4096x1000, .f32⟩
  | .local _ .vmem, ⟨0, _⟩ => ⟨S512x1000, .f32⟩
  | .local _ .vmem, ⟨1, _⟩ => ⟨S512x1000, .f32⟩
  | .local _ .vmem, ⟨2, _⟩ => ⟨S1000x2048, .bf16⟩
  | .local _ .vmem, ⟨3, _⟩ => ⟨S1x2048, .f32⟩
  | .local _ .vmem, ⟨4, _⟩ => ⟨S2048x1024, .bf16⟩
  | .local _ .vmem, ⟨5, _⟩ => ⟨S1x1024, .f32⟩
  | .local _ .vmem, ⟨6, _⟩ => ⟨S1024x512, .bf16⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x1000, .f32⟩
  | .local _ .vmem, ⟨11, _⟩ => ⟨S512x1000, .f32⟩
  | .local _ .vmem, ⟨12, _⟩ => ⟨S1000x2048, .bf16⟩
  | .local _ .vmem, ⟨13, _⟩ => ⟨S1x2048, .f32⟩
  | .local _ .vmem, ⟨14, _⟩ => ⟨S2048x1024, .bf16⟩
  | .local _ .vmem, ⟨15, _⟩ => ⟨S1x1024, .f32⟩
  | .local _ .vmem, ⟨16, _⟩ => ⟨S1024x512, .bf16⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x1000, .f32⟩
  | .local _ .vmem, ⟨21, _⟩ => ⟨S512x1000, .f32⟩
  | .local _ .vmem, ⟨22, _⟩ => ⟨S1000x2048, .bf16⟩
  | .local _ .vmem, ⟨23, _⟩ => ⟨S1x2048, .f32⟩
  | .local _ .vmem, ⟨24, _⟩ => ⟨S2048x1024, .bf16⟩
  | .local _ .vmem, ⟨25, _⟩ => ⟨S1x1024, .f32⟩
  | .local _ .vmem, ⟨26, _⟩ => ⟨S1024x512, .bf16⟩
  | .local _ .vmem, ⟨27, _⟩ => ⟨S1x512, .f32⟩
  | .local _ .vmem, ⟨28, _⟩ => ⟨S512x512, .f32⟩
  | .local _ .vmem, ⟨29, _⟩ => ⟨S512x512, .f32⟩
  | .local _ .vmem, ⟨30, _⟩ => ⟨S1x512x64, .bf16⟩
  | .local _ .vmem, ⟨31, _⟩ => ⟨S1x512x64, .bf16⟩
  | .local _ .vmem, ⟨32, _⟩ => ⟨S1x4096x64, .bf16⟩
  | .local _ .vmem, ⟨33, _⟩ => ⟨S1x4096x64, .bf16⟩
  | .local _ .vmem, ⟨34, _⟩ => ⟨S1x4096x64, .bf16⟩
  | .local _ .vmem, ⟨35, _⟩ => ⟨S1x4096x64, .bf16⟩
  | .local _ .vmem, ⟨36, _⟩ => ⟨S1x512x64, .bf16⟩
  | .local _ .vmem, ⟨37, _⟩ => ⟨S1x512x64, .bf16⟩
  | .local _ .vmem, ⟨38, _⟩ => ⟨S512x512, .bf16⟩
  | .local _ .vmem, ⟨39, _⟩ => ⟨S512x512, .bf16⟩
  | .local _ .vmem, ⟨40, _⟩ => ⟨S512x1000, .bf16⟩
  | .local _ .vmem, ⟨41, _⟩ => ⟨S1x1000, .f32⟩
  | .local _ .vmem, ⟨42, _⟩ => ⟨S512x1000, .f32⟩
  | .local _ .vmem, ⟨43, _⟩ => ⟨S512x1000, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1000x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x4096x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x4096x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x512x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x1000 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1000 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1000 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bitsLt_bf16_f32 : FTy.bits .bf16 < FTy.bits .f32
  shapeCasts_S2048_S1x2048 : S2048.ShapeCasts S1x2048
  shapeCasts_S1024_S1x1024 : S1024.ShapeCasts S1x1024
  shapeCasts_S512_S1x512 : S512.ShapeCasts S1x512
  inb_S512x1000_S512x1000_0_0 : ∀ a, (![0, 0] : Fin 2 → Nat) a + S512x1000.size a ≤ S512x1000.size a
  h_S512x1000 : 0 < S512x1000.numel
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S4096x512_S4096x8x64 : S4096x512.ShapeCasts S4096x8x64
  transposes_S4096x8x64_S8x4096x64_1_0_2 : S4096x8x64.Transposes [1, 0, 2] S8x4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  reduces_S512x4096_S512 : S512x4096.Reduces [1] S512
  shapeCasts_S512_S512x1 : S512.ShapeCasts S512x1
  broadcasts_S512x1_S512x4096 : S512x1.Broadcasts S512x4096
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  transposes_S8x4096x64_S4096x8x64_1_0_2 : S8x4096x64.Transposes [1, 0, 2] S4096x8x64
  shapeCasts_S4096x8x64_S4096x512 : S4096x8x64.ShapeCasts S4096x512
  shapeCasts_S1000_S1x1000 : S1000.ShapeCasts S1x1000
  shapeCasts_S512x512_S512x512 : S512x512.ShapeCasts S512x512
  shapeCasts_S512x1000_S512x1000 : S512x1000.ShapeCasts S512x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  dot_S512x1000_S1000x2048_S512x2048_1_0_0_1_n_n_wf : DotDims.WF S512x1000 S1000x2048 S512x2048 [1] [0] [0] [1] [] []
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  dot_S512x512_S512x1000_S512x1000_1_0_0_1_n_n_wf : DotDims.WF S512x512 S512x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S4096x1000.size a
  hwx0_0 : ∀ i : grid0.Coords, EltTy.bits .f32 = 32 ∨ (Rect.block (s := S4096x1000) S512x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S1000x2048.size a
  hwx0_1 : ∀ i : grid0.Coords, EltTy.bits .bf16 = 32 ∨ (Rect.block (s := S1000x2048) S1000x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x512.size a
  hwx0_7 : ∀ i : grid0.Coords, EltTy.bits .f32 = 32 ∨ (Rect.block (s := S4096x512) S512x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1000.size a ≤ S4096x1000.size a
  hwx1_0 : ∀ i : grid1.Coords, EltTy.bits .f32 = 32 ∨ (Rect.block (s := S4096x1000) S512x1000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1000x2048.size a ≤ S1000x2048.size a
  hwx1_1 : ∀ i : grid1.Coords, EltTy.bits .bf16 = 32 ∨ (Rect.block (s := S1000x2048) S1000x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S2048x1024.size a
  hwx1_3 : ∀ i : grid1.Coords, EltTy.bits .bf16 = 32 ∨ (Rect.block (s := S2048x1024) S2048x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S1024x512.size a
  hwx1_5 : ∀ i : grid1.Coords, EltTy.bits .bf16 = 32 ∨ (Rect.block (s := S1024x512) S1024x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S4096x512.size a
  hwx1_7 : ∀ i : grid1.Coords, EltTy.bits .f32 = 32 ∨ (Rect.block (s := S4096x512) S512x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1000.size a ≤ S4096x1000.size a
  hwx2_0 : ∀ i : grid2.Coords, EltTy.bits .f32 = 32 ∨ (Rect.block (s := S4096x1000) S512x1000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1000x2048.size a ≤ S1000x2048.size a
  hwx2_1 : ∀ i : grid2.Coords, EltTy.bits .bf16 = 32 ∨ (Rect.block (s := S1000x2048) S1000x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S2048x1024.size a
  hwx2_3 : ∀ i : grid2.Coords, EltTy.bits .bf16 = 32 ∨ (Rect.block (s := S2048x1024) S2048x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S1024x512.size a
  hwx2_5 : ∀ i : grid2.Coords, EltTy.bits .bf16 = 32 ∨ (Rect.block (s := S1024x512) S1024x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x512.size a ≤ S4096x512.size a
  hwx2_7 : ∀ i : grid2.Coords, EltTy.bits .f32 = 32 ∨ (Rect.block (s := S4096x512) S512x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x64.size a ≤ S8x4096x64.size a
  hwx3_0 : ∀ i : grid3.Coords, EltTy.bits .bf16 = 32 ∨ (Rect.block (s := S8x4096x64) S1x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x4096x64.size a ≤ S8x4096x64.size a
  hwx3_1 : ∀ i : grid3.Coords, EltTy.bits .bf16 = 32 ∨ (Rect.block (s := S8x4096x64) S1x4096x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x4096x64.size a ≤ S8x4096x64.size a
  hwx3_2 : ∀ i : grid3.Coords, EltTy.bits .bf16 = 32 ∨ (Rect.block (s := S8x4096x64) S1x4096x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x64.size a ≤ S8x4096x64.size a
  hwx3_3 : ∀ i : grid3.Coords, EltTy.bits .bf16 = 32 ∨ (Rect.block (s := S8x4096x64) S1x512x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S4096x512.size a
  hwx4_0 : ∀ i : grid4.Coords, EltTy.bits .bf16 = 32 ∨ (Rect.block (s := S4096x512) S512x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1000.size a ≤ S512x1000.size a
  hwx4_1 : ∀ i : grid4.Coords, EltTy.bits .bf16 = 32 ∨ (Rect.block (s := S512x1000) S512x1000.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1000.size a ≤ S1x1000.size a
  hwx4_2 : ∀ i : grid4.Coords, EltTy.bits .f32 = 32 ∨ (Rect.block (s := S1x1000) S1x1000.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1000.size a ≤ S4096x1000.size a
  hwx4_3 : ∀ i : grid4.Coords, EltTy.bits .f32 = 32 ∨ (Rect.block (s := S4096x1000) S512x1000.size (cc4_transform_3 i) (hinb4_3 i)).WholeWords (EltTy.packing .f32)

variable [Facts₀]

def dot_S512x1000_S1000x2048_S512x2048_1_0_0_1_n_n : DotDims S512x1000 S1000x2048 S512x2048 where
  lhsContracting := [1]
  rhsContracting := [0]
  lhsNonContracting := [0]
  rhsNonContracting := [1]
  lhsBatch := []
  rhsBatch := []
  wf := dot_S512x1000_S1000x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x512_S512x1000_S512x1000_1_0_0_1_n_n : DotDims S512x512 S512x1000 S512x1000 where
  lhsContracting := [1]
  rhsContracting := [0]
  lhsNonContracting := [0]
  rhsNonContracting := [1]
  lhsBatch := []
  rhsBatch := []
  wf := dot_S512x512_S512x1000_S512x1000_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S512x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1000x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1024x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S512x1000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1000x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S2048x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1024x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20) S512x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v23) S1x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1x4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x4096x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x512x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S512x1000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34) S1x1000.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S512x1000.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4096x1000 : Shape := ⟨2, ![4096, 1000]⟩
abbrev S1000x2048 : Shape := ⟨2, ![1000, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S4096x2048 : Shape := ⟨2, ![4096, 2048]⟩
abbrev S1x2048 : Shape := ⟨2, ![1, 2048]⟩
abbrev S_ : Shape := ⟨0, ![]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S8x4096 : Shape := ⟨2, ![8, 4096]⟩
abbrev S8x4096x1 : Shape := ⟨3, ![8, 4096, 1]⟩
abbrev S1x1000 : Shape := ⟨2, ![1, 1000]⟩

abbrev nBuf : Space → Nat
  | .hbm => 107
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S1000x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S1000x2048, .f32⟩
  | .hbm, ⟨8, _⟩ => ⟨S2048, .f32⟩
  | .hbm, ⟨9, _⟩ => ⟨S2048x1024, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S1000x2048, .f32⟩
  | .hbm, ⟨14, _⟩ => ⟨S2048, .f32⟩
  | .hbm, ⟨15, _⟩ => ⟨S2048x1024, .f32⟩
  | .hbm, ⟨16, _⟩ => ⟨S1024, .f32⟩
  | .hbm, ⟨17, _⟩ => ⟨S1024x512, .f32⟩
  | .hbm, ⟨18, _⟩ => ⟨S512, .f32⟩
  | .hbm, ⟨19, _⟩ => ⟨S512x1000, .f32⟩
  | .hbm, ⟨20, _⟩ => ⟨S1000, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S4096x2048, .f32⟩
  | .hbm, ⟨58, _⟩ => ⟨S1x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096x2048, .f32⟩
  | .hbm, ⟨63, _⟩ => ⟨S4096x2048, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x512, .f32⟩
  | .hbm, ⟨72, _⟩ => ⟨S1x512, .f32⟩
  | .hbm, ⟨73, _⟩ => ⟨S4096x512, .f32⟩
  | .hbm, ⟨74, _⟩ => ⟨S4096x512, .f32⟩
  | .hbm, ⟨75, _⟩ => ⟨S4096x8x64, .f32⟩
  | .hbm, ⟨76, _⟩ => ⟨S8x4096x64, .f32⟩
  | .hbm, ⟨77, _⟩ => ⟨S_, .f32⟩
  | .hbm, ⟨78, _⟩ => ⟨S8x4096x64, .f32⟩
  | .hbm, ⟨79, _⟩ => ⟨S8x4096x64, .f32⟩
  | .hbm, ⟨80, _⟩ => ⟨S4096x8x64, .f32⟩
  | .hbm, ⟨81, _⟩ => ⟨S8x4096x64, .f32⟩
  | .hbm, ⟨82, _⟩ => ⟨S_, .f32⟩
  | .hbm, ⟨83, _⟩ => ⟨S8x4096x64, .f32⟩
  | .hbm, ⟨84, _⟩ => ⟨S8x4096x64, .f32⟩
  | .hbm, ⟨85, _⟩ => ⟨S4096x8x64, .f32⟩
  | .hbm, ⟨86, _⟩ => ⟨S8x4096x64, .f32⟩
  | .hbm, ⟨87, _⟩ => ⟨S8x4096x4096, .f32⟩
  | .hbm, ⟨88, _⟩ => ⟨S_, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x4096, .f32⟩
  | .hbm, ⟨99, _⟩ => ⟨S8x4096x4096, .f32⟩
  | .hbm, ⟨100, _⟩ => ⟨S8x4096x64, .f32⟩
  | .hbm, ⟨101, _⟩ => ⟨S4096x8x64, .f32⟩
  | .hbm, ⟨102, _⟩ => ⟨S4096x512, .f32⟩
  | .hbm, ⟨103, _⟩ => ⟨S4096x1000, .f32⟩
  | .hbm, ⟨104, _⟩ => ⟨S1x1000, .f32⟩
  | .hbm, ⟨105, _⟩ => ⟨S4096x1000, .f32⟩
  | .hbm, ⟨106, _⟩ => ⟨S4096x1000, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call1_cst : Ref sig .tc := ⟨.hbm, 32, rfl⟩
abbrev main_call1_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call2_cst : Ref sig .tc := ⟨.hbm, 43, rfl⟩
abbrev main_call2_v0 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call3_cst : Ref sig .tc := ⟨.hbm, 50, rfl⟩
abbrev main_call3_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call4_cst : Ref sig .tc := ⟨.hbm, 61, rfl⟩
abbrev main_call4_v0 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call5_cst : Ref sig .tc := ⟨.hbm, 68, rfl⟩
abbrev main_call5_v0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call6_cst : Ref sig .tc := ⟨.hbm, 77, rfl⟩
abbrev main_call6_v0 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call7_cst : Ref sig .tc := ⟨.hbm, 82, rfl⟩
abbrev main_call7_v0 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_0 : Ref sig .tc := ⟨.hbm, 92, rfl⟩
abbrev main_v54 : Ref sig .tc := ⟨.hbm, 93, rfl⟩
abbrev main_v55 : Ref sig .tc := ⟨.hbm, 94, rfl⟩
abbrev main_cst_1 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  shapeCasts_S4096x512_S4096x8x64 : S4096x512.ShapeCasts S4096x8x64
  transposes_S4096x8x64_S8x4096x64_1_0_2 : S4096x8x64.Transposes [1, 0, 2] S8x4096x64
  bcast_S_S8x4096x64 : S_.BroadcastsInDim S8x4096x64 (![] : Fin 0 → Fin S8x4096x64.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x4096_0_1_2 : S8x4096x1.BroadcastsInDim S8x4096x4096 (![0, 1, 2] : Fin 3 → Fin S8x4096x4096.rank)
  transposes_S8x4096x64_S4096x8x64_1_0_2 : S8x4096x64.Transposes [1, 0, 2] S4096x8x64
  shapeCasts_S4096x8x64_S4096x512 : S4096x8x64.ShapeCasts S4096x512
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x1000_S1000x2048_S4096x2048_1_0_0_1_n_n_wf : DotDims.WF S4096x1000 S1000x2048 S4096x2048 [1] [0] [0] [1] [] []
  dot_S4096x2048_S2048x1024_S4096x1024_1_0_0_1_n_n_wf : DotDims.WF S4096x2048 S2048x1024 S4096x1024 [1] [0] [0] [1] [] []
  dot_S4096x1024_S1024x512_S4096x512_1_0_0_1_n_n_wf : DotDims.WF S4096x1024 S1024x512 S4096x512 [1] [0] [0] [1] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]
  dot_S4096x512_S512x1000_S4096x1000_1_0_0_1_n_n_wf : DotDims.WF S4096x512 S512x1000 S4096x1000 [1] [0] [0] [1] [] []

variable [Facts₀]

def dot_S4096x1000_S1000x2048_S4096x2048_1_0_0_1_n_n : DotDims S4096x1000 S1000x2048 S4096x2048 where
  lhsContracting := [1]
  rhsContracting := [0]
  lhsNonContracting := [0]
  rhsNonContracting := [1]
  lhsBatch := []
  rhsBatch := []
  wf := dot_S4096x1000_S1000x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf
def dot_S4096x512_S512x1000_S4096x1000_1_0_0_1_n_n : DotDims S4096x512 S512x1000 S4096x1000 where
  lhsContracting := [1]
  rhsContracting := [0]
  lhsNonContracting := [0]
  rhsNonContracting := [1]
  lhsBatch := []
  rhsBatch := []
  wf := dot_S4096x512_S512x1000_S4096x1000_1_0_0_1_n_n_wf

class Facts : Prop extends Facts₀ where

variable [Facts]
-- ==== Proof.KRun.lean ====
/-
  The idealized kernel's run with its result named.

  The program is five kernel launches among stretches of host operations.  Every execution ends, and in the final
  state the result array holds what the fold of the program's segments over the launch memory leaves there: the last
  launch's output array after all of its blocks are written back.  The argument arrays end as launched.
-/
import proofs.«107034_j21887153340754_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    and every argument array as launched. -/
theorem run_out : θ_run defs (onTc (τ := τ) (main (F := F))) ⟨m, fun _ => 0, ρ⟩ (fun r => ∀ c : Dev nD,
      r.2.mem ((c.tc : Thread nD τ).loc main_v35) = W10 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v35 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c)⟩)

end Cert.KernelIdeal.KRun

end
-- ==== Proof.KWalk.lean ====
/-
  Which arrays the program leaves alone between the launch and each of its kernel launches.

  The program alternates stretches of host operations with kernel launches.  A host operation writes only its own
  result array, and a launch writes only its output array, so an argument array is as launched wherever it is read,
  and a launch's output array keeps its contents until something reads it.
-/
import proofs.«107034_j21887153340754_1_alg».proof.Proof.Gen.KernelIdeal.Frame
import Idealize.ShloMosaic.Lib.ValueIdx
import Idealize.ShloMosaic.Lib.StableHlo.Run
import Idealize.ShloMosaic.Lib.Pipeline.Value

set_option maxRecDepth 16384

noncomputable section

namespace Cert.KernelIdeal.KWalk

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- A stretch of host operations leaves a buffer none of them writes as it was. -/
macro "keep_host " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The input array is as launched when the first launch begins. -/
theorem x_at1 (c : Dev nD) : W1 m ρ c (Proc.devRef .tc main_arg0) = m ((c : Thread nD τ).loc main_arg0) :=
  calc W1 m ρ c (Proc.devRef .tc main_arg0)
    _ = W0 m ρ c (Proc.devRef .tc main_arg0) := by keep_host hostOps0
    _ = m ((c : Thread nD τ).loc main_arg0) := rfl

/-- The input array is as launched when the second launch begins. -/
theorem x_at3 (c : Dev nD) : W3 m ρ c (Proc.devRef .tc main_arg0) = m ((c : Thread nD τ).loc main_arg0) :=
  calc W3 m ρ c (Proc.devRef .tc main_arg0)
    _ = W2 m ρ c (Proc.devRef .tc main_arg0) := by keep_host hostOps1
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by keep_host hostOps0
    _ = m ((c : Thread nD τ).loc main_arg0) := rfl

/-- The input array is as launched when the third launch begins. -/
theorem x_at5 (c : Dev nD) : W5 m ρ c (Proc.devRef .tc main_arg0) = m ((c : Thread nD τ).loc main_arg0) :=
  calc W5 m ρ c (Proc.devRef .tc main_arg0)
    _ = W4 m ρ c (Proc.devRef .tc main_arg0) := by keep_host hostOps2
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := by keep_host hostOps1
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by keep_host hostOps0
    _ = m ((c : Thread nD τ).loc main_arg0) := rfl

/-- Argument 7 is as launched after the first launch. -/
theorem arg7_at2 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by keep_host hostOps0
    _ = m ((c : Thread nD τ).loc main_arg7) := rfl

/-- Argument 8 is as launched after the first launch. -/
theorem arg8_at2 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by keep_host hostOps0
    _ = m ((c : Thread nD τ).loc main_arg8) := rfl

/-- Argument 9 is as launched after the first launch. -/
theorem arg9_at2 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by keep_host hostOps0
    _ = m ((c : Thread nD τ).loc main_arg9) := rfl

/-- Argument 10 is as launched after the first launch. -/
theorem arg10_at2 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by keep_host hostOps0
    _ = m ((c : Thread nD τ).loc main_arg10) := rfl

/-- Argument 11 is as launched after the first launch. -/
theorem arg11_at2 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by keep_host hostOps0
    _ = m ((c : Thread nD τ).loc main_arg11) := rfl

/-- Argument 12 is as launched after the first launch. -/
theorem arg12_at2 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := by keep_host hostOps0
    _ = m ((c : Thread nD τ).loc main_arg12) := rfl

/-- Argument 13 is as launched after the second launch. -/
theorem arg13_at4 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by keep_host hostOps1
    _ = W1 m ρ c (Proc.devRef .tc main_arg13) := W2_of_ne m ρ c main_arg13 (by decide)
    _ = W0 m ρ c (Proc.devRef .tc main_arg13) := by keep_host hostOps0
    _ = m ((c : Thread nD τ).loc main_arg13) := rfl

/-- Argument 14 is as launched after the second launch. -/
theorem arg14_at4 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by keep_host hostOps1
    _ = W1 m ρ c (Proc.devRef .tc main_arg14) := W2_of_ne m ρ c main_arg14 (by decide)
    _ = W0 m ρ c (Proc.devRef .tc main_arg14) := by keep_host hostOps0
    _ = m ((c : Thread nD τ).loc main_arg14) := rfl

/-- Argument 15 is as launched after the second launch. -/
theorem arg15_at4 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by keep_host hostOps1
    _ = W1 m ρ c (Proc.devRef .tc main_arg15) := W2_of_ne m ρ c main_arg15 (by decide)
    _ = W0 m ρ c (Proc.devRef .tc main_arg15) := by keep_host hostOps0
    _ = m ((c : Thread nD τ).loc main_arg15) := rfl

/-- Argument 16 is as launched after the second launch. -/
theorem arg16_at4 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := by keep_host hostOps1
    _ = W1 m ρ c (Proc.devRef .tc main_arg16) := W2_of_ne m ρ c main_arg16 (by decide)
    _ = W0 m ρ c (Proc.devRef .tc main_arg16) := by keep_host hostOps0
    _ = m ((c : Thread nD τ).loc main_arg16) := rfl

/-- Argument 17 is as launched after the second launch. -/
theorem arg17_at4 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by keep_host hostOps1
    _ = W1 m ρ c (Proc.devRef .tc main_arg17) := W2_of_ne m ρ c main_arg17 (by decide)
    _ = W0 m ρ c (Proc.devRef .tc main_arg17) := by keep_host hostOps0
    _ = m ((c : Thread nD τ).loc main_arg17) := rfl

/-- Argument 18 is as launched after the second launch. -/
theorem arg18_at4 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := by keep_host hostOps1
    _ = W1 m ρ c (Proc.devRef .tc main_arg18) := W2_of_ne m ρ c main_arg18 (by decide)
    _ = W0 m ρ c (Proc.devRef .tc main_arg18) := by keep_host hostOps0
    _ = m ((c : Thread nD τ).loc main_arg18) := rfl

/-- The first launch's output array is untouched until the fourth launch's operands are prepared. -/
theorem q_at6 (c : Dev nD) : W6 m ρ c (Proc.devRef .tc main_v6) = W2 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by keep_host hostOps2
    _ = W3 m ρ c (Proc.devRef .tc main_v6) := W4_of_ne m ρ c main_v6 (by decide)
    _ = W2 m ρ c (Proc.devRef .tc main_v6) := by keep_host hostOps1

/-- The second launch's output array is untouched until the fourth launch's operands are prepared. -/
theorem k_at6 (c : Dev nD) : W6 m ρ c (Proc.devRef .tc main_v13) = W4 m ρ c (Proc.devRef .tc main_v13) :=
  calc W6 m ρ c (Proc.devRef .tc main_v13)
    _ = W5 m ρ c (Proc.devRef .tc main_v13) := W6_of_ne m ρ c main_v13 (by decide)
    _ = W4 m ρ c (Proc.devRef .tc main_v13) := by keep_host hostOps2

/-- Argument 19 is as launched after the fourth launch: nothing after it writes the array either, and it ends as launched. -/
theorem arg19_at8 (c : Dev nD) : W8 m ρ c (Proc.devRef .tc main_arg19) = m ((c : Thread nD τ).loc main_arg19) :=
  calc W8 m ρ c (Proc.devRef .tc main_arg19)
    _ = W9 m ρ c (Proc.devRef .tc main_arg19) := Eq.symm (by keep_host hostOps4)
    _ = W10 m ρ c (Proc.devRef .tc main_arg19) := (W10_of_ne m ρ c main_arg19 (by decide)).symm
    _ = m ((c : Thread nD τ).loc main_arg19) := W10_main_arg19 m ρ c

/-- Argument 20 is as launched after the fourth launch: nothing after it writes the array either, and it ends as launched. -/
theorem arg20_at8 (c : Dev nD) : W8 m ρ c (Proc.devRef .tc main_arg20) = m ((c : Thread nD τ).loc main_arg20) :=
  calc W8 m ρ c (Proc.devRef .tc main_arg20)
    _ = W9 m ρ c (Proc.devRef .tc main_arg20) := Eq.symm (by keep_host hostOps4)
    _ = W10 m ρ c (Proc.devRef .tc main_arg20) := (W10_of_ne m ρ c main_arg20 (by decide)).symm
    _ = m ((c : Thread nD τ).loc main_arg20) := W10_main_arg20 m ρ c

end Cert.KernelIdeal.KWalk

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibDense.lean ====
/-
  A dense layer read one entry at a time, at the exact (extended-real) values.

  A dense layer sends a row r of K numbers to the N numbers  (r · W)(q) + b(q),  W a K×N matrix and b a bias of N
  numbers; the rectifier then replaces each by its maximum with zero.  On the vector unit a block of M rows goes
  through the layer at once: the M×K block times W into a zero accumulator, plus the bias — kept as a 1×N array —
  spread over the M rows.  Entry (p, q) of that block is the layer applied to row p of the block, at q: rows do not
  mix.  Stated once for every M, K, N.
-/
import Idealize.ShloMosaic.Lib.ValueIdx
import Idealize.ShloMosaic.Lib.ValueLayout
import Idealize.ShloMosaic.Lib.Pipeline.Value
import Idealize.ShloMosaic.PureOps.Ideal.Laws
import proofs.«107034_j21887153340754_1_alg».proof.Proof.LibRowDot

noncomputable section

open scoped BigOperators

namespace Cert.Dense

open Idealize.ShloMosaic Idealize.ShloMosaic.ValueIdx Cert.RowDot

/-- A dense layer on one row: entry q is (row · W)(q) + b(q). -/
def dense {K N : Nat} (W : (⟨2, ![K, N]⟩ : Shape).Idx → EReal) (b : Fin N → EReal) (row : Fin K → EReal) : Fin N → EReal :=
  fun q => rowDot row W q + b q

/-- The rectifier of a row: each entry's maximum with the number the all-zero f32 word denotes. -/
def relu {N : Nat} (v : Fin N → EReal) : Fin N → EReal := fun q => max (v q) (Ideal.ofBits .f32 0x00000000#32)

/-- A bias kept as a 1×N array, as a function of the column. -/
def biasRow {N : Nat} (b : (⟨2, ![1, N]⟩ : Shape).Idx → EReal) : Fin N → EReal := fun q => b (ix2 (0 : Fin 1) q)

/-- A bias kept as a length-N array, as a function of the column. -/
def biasVec {N : Nat} (b : (⟨1, ![N]⟩ : Shape).Idx → EReal) : Fin N → EReal := fun q => b (ix1 q)

/-- A length-N bias recast as a 1×N array is the same bias. -/
theorem biasRow_shapeCast {N : Nat} (b : (⟨1, ![N]⟩ : Shape).Idx → EReal) (h : (⟨1, ![N]⟩ : Shape).ShapeCasts ⟨2, ![1, N]⟩) :
    biasRow (shapeCast ⟨2, ![1, N]⟩ b h) = biasVec b :=
  funext fun q => shapeCast_a_1a_apply b h 0 q

/-- The vector unit's product of a block of M rows with a recast K×N matrix into zero, at entry (p, q): row p times W. -/
theorem matmul_block_apply {M K N : Nat} {φ₁ φ₂ : FTy} (prec : Option ContractPrecision)
    (a : FVec Ideal (⟨2, ![M, K]⟩ : Shape) φ₁) (w : FVec Ideal (⟨2, ![K, N]⟩ : Shape) φ₂)
    (hw : (⟨2, ![K, N]⟩ : Shape).ShapeCasts ⟨2, ![K, N]⟩) (p : Fin M) (q : Fin N) :
    matmul (DotDims.plain M K N) prec a (shapeCast ⟨2, ![K, N]⟩ w hw)
        (constant (F := Ideal) ⟨2, ![M, N]⟩ .f32 0x00000000#32) (ix2 p q)
      = rowDot (rowOf a p) w q := by
  rw [shapeCast_self]
  exact matmul_plain_zero_apply prec a w (ix2 p q)

/-- The vector unit's layer on a block of M rows, at entry (p, q): the layer applied to row p of the block. -/
theorem dense_block_apply {M K N : Nat} {φ₁ φ₂ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (p : Fin M) (q : Fin N) :
    addf (matmul (DotDims.plain M K N) prec a (shapeCast ⟨2, ![K, N]⟩ w hw)
        (constant (F := Ideal) ⟨2, ![M, N]⟩ .f32 0x00000000#32))
      (broadcastTo ⟨2, ![M, N]⟩ (shapeCast ⟨2, ![1, N]⟩ b hb) hbc) (ix2 p q)
      = dense w (biasRow b) (rowOf a p) q := by
  show matmul (DotDims.plain M K N) prec a (shapeCast ⟨2, ![K, N]⟩ w hw)
        (constant (F := Ideal) ⟨2, ![M, N]⟩ .f32 0x00000000#32) (ix2 p q)
      + broadcastTo ⟨2, ![M, N]⟩ (shapeCast ⟨2, ![1, N]⟩ b hb) hbc (ix2 p q) = _
  rw [matmul_block_apply, broadcastTo_1b_ab_apply, shapeCast_self]
  rfl

/-- The same with the rectifier and a change of float format after it (which keeps every value). -/
theorem relu_dense_block_apply {M K N : Nat} {φ₁ φ₂ ψ : FTy} (prec : Option ContractPrecision)
    (a : FVec Ideal (⟨2, ![M, K]⟩ : Shape) φ₁) (w : FVec Ideal (⟨2, ![K, N]⟩ : Shape) φ₂)
    (b : FVec Ideal (⟨2, ![1, N]⟩ : Shape) .f32)
    (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![M, N]⟩)
    (hψ : ψ.bits < FTy.f32.bits) (p : Fin M) (q : Fin N) :
    (truncf ψ (maximumf (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc))
      (broadcast ⟨2, ![M, N]⟩ (Scalar.ofBits (F := Ideal) .f32 0x00000000#32))) hψ : FVec Ideal ⟨2, ![M, N]⟩ ψ) (ix2 p q)
      = relu (dense w (biasRow b) (rowOf a p)) q := by
  show max (addf (matmul (DotDims.plain M K N) prec a (shapeCast ⟨2, ![K, N]⟩ w hw)
          (constant (F := Ideal) ⟨2, ![M, N]⟩ .f32 0x00000000#32))
        (broadcastTo ⟨2, ![M, N]⟩ (shapeCast ⟨2, ![1, N]⟩ b hb) hbc) (ix2 p q)) (Ideal.ofBits .f32 0x00000000#32) = _
  rw [dense_block_apply]
  rfl

end Cert.Dense

end
-- ==== Proof.Spec.lean ====
/-
  What the two programs compute, as one function of the argument arrays on the extended reals.

  Three row-wise maps of the same shape send each of the 4096 rows of `batch` (1000 numbers) through three dense
  layers with a rectifier after the first two, giving the 4096×512 projections Q, K and V.  Column 64·h + d of a
  projection is entry d of head h.  Per head, the score of rows n and m is the scaled product of the rectified
  rows  s(n, m) = sc (Σ_d max(Q_h(n, d), 0) · max(K_h(m, d), 0)),  the weights are the scores of a row divided by
  their sum plus a small constant, and the head's output at (n, d) is  Σ_m w(n, m) · V_h(m, d).  The heads' outputs
  are laid side by side again (column 64·h + d) and go through one more dense map.

  The two programs differ in the scaling alone: one multiplies by 1/8, the other divides by the square root of 64.
  Both are the same function of an extended real, so the whole results agree with no condition on the inputs.
-/
import Idealize.ShloMosaic.Lib.ValueIdx
import Idealize.ShloMosaic.PureOps.Ideal.Laws
import proofs.«107034_j21887153340754_1_alg».proof.Proof.LibDense

noncomputable section

open scoped BigOperators

namespace Cert.Spec

open Idealize.ShloMosaic Idealize.ShloMosaic.ValueIdx Cert.RowDot Cert.Dense

/-- Arrays of extended reals over literal shapes. -/
abbrev T1 (a : Nat) : Type := (⟨1, ![a]⟩ : Shape).Idx → EReal
abbrev T2 (a b : Nat) : Type := (⟨2, ![a, b]⟩ : Shape).Idx → EReal
abbrev T3 (a b c : Nat) : Type := (⟨3, ![a, b, c]⟩ : Shape).Idx → EReal

/-- Three dense layers on one row, a rectifier after the first and the second. -/
def mlpRow (W1 : T2 1000 2048) (b1 : T1 2048) (W2 : T2 2048 1024) (b2 : T1 1024) (W3 : T2 1024 512) (b3 : T1 512)
    (row : Fin 1000 → EReal) : Fin 512 → EReal :=
  dense W3 (biasVec b3) (relu (dense W2 (biasVec b2) (relu (dense W1 (biasVec b1) row))))

/-- The three layers applied to every row of x. -/
def mlp (x : T2 4096 1000) (W1 : T2 1000 2048) (b1 : T1 2048) (W2 : T2 2048 1024) (b2 : T1 1024) (W3 : T2 1024 512)
    (b3 : T1 512) : T2 4096 512 :=
  fun j => mlpRow W1 b1 W2 b2 W3 b3 (rowOf x (j 0)) (j 1)

/-- Column of entry d of head h in a 512-wide row. -/
def hcol (h : Fin 8) (d : Fin 64) : Fin 512 := ⟨h.val * 64 + d.val, by omega⟩

/-- A 4096×512 projection cut into 8 heads of 64 columns: (h, n, d) ↦ X(n, 64·h + d). -/
def heads (X : T2 4096 512) : T3 8 4096 64 := fun i => X (ix2 (i 1) (hcol (i 0) (i 2)))

/-- The scaled product of the rectified rows n of q and m of k, in head h. -/
def score (sc : EReal → EReal) (q k : T3 8 4096 64) (h : Fin 8) (n m : Fin 4096) : EReal :=
  sc (∑ d : Fin 64, max (q (ix3 h n d)) 0 * max (k (ix3 h m d)) 0)

/-- The small constant added to a row's sum of scores. -/
def eps : EReal := Ideal.ofBits .f32 0x322BCC77#32

/-- A row's sum of scores plus the small constant. -/
def denom (sc : EReal → EReal) (q k : T3 8 4096 64) (h : Fin 8) (n : Fin 4096) : EReal :=
  (∑ m : Fin 4096, score sc q k h n m) + eps

/-- The heads' outputs: the scores of a row over their sum, applied to the rows of v. -/
def attn (sc : EReal → EReal) (q k v : T3 8 4096 64) : T3 8 4096 64 :=
  fun i => ∑ m : Fin 4096, Ideal.div (score sc q k (i 0) (i 1) m) (denom sc q k (i 0) (i 1)) * v (ix3 (i 0) m (i 2))

/-- The heads laid side by side again: (n, e) ↦ X(e / 64, n, e mod 64). -/
def flat (X : T3 8 4096 64) : T2 4096 512 :=
  fun j => X (ix3 (⟨(j 1).val / 64, by have := (j 1).isLt; change _ < 512 at this; omega⟩ : Fin 8) (j 0)
    (⟨(j 1).val % 64, Nat.mod_lt _ (by decide)⟩ : Fin 64))

/-- One dense map on every row. -/
def outProj (a : T2 4096 512) (W : T2 512 1000) (b : T1 1000) : T2 4096 1000 :=
  fun j => dense W (biasVec b) (rowOf a (j 0)) (j 1)

/-- The whole result as a function of the 21 argument arrays, the scaling of a score a parameter. -/
def G (sc : EReal → EReal) (x : T2 4096 1000)
    (qW1 : T2 1000 2048) (qb1 : T1 2048) (qW2 : T2 2048 1024) (qb2 : T1 1024) (qW3 : T2 1024 512) (qb3 : T1 512)
    (kW1 : T2 1000 2048) (kb1 : T1 2048) (kW2 : T2 2048 1024) (kb2 : T1 1024) (kW3 : T2 1024 512) (kb3 : T1 512)
    (vW1 : T2 1000 2048) (vb1 : T1 2048) (vW2 : T2 2048 1024) (vb2 : T1 1024) (vW3 : T2 1024 512) (vb3 : T1 512)
    (wo : T2 512 1000) (bo : T1 1000) : T2 4096 1000 :=
  outProj (flat (attn sc (heads (mlp x qW1 qb1 qW2 qb2 qW3 qb3)) (heads (mlp x kW1 kb1 kW2 kb2 kW3 kb3))
    (heads (mlp x vW1 vb1 vW2 vb2 vW3 vb3)))) wo bo

/-- Scaling by the number the f32 word of 0.125 denotes. -/
def kScale : EReal → EReal := fun x => x * Ideal.ofBits .f32 0x3E000000#32

/-- Dividing by the square root of the number the f32 word of 64 denotes. -/
def rScale : EReal → EReal := fun x => Ideal.div x (Ideal.sqrt (Ideal.ofBits .f32 0x42800000#32))

/-- The f32 word 0x3E000000 denotes 1/8. -/
theorem ofBits_eighth : Ideal.ofBits .f32 0x3E000000#32 = ((1 / 8 : ℝ) : EReal) := by
  simp [Ideal.ofBits, Ideal.ieee, -EReal.coe_mul]; norm_num

/-- The f32 word 0x42800000 denotes 64. -/
theorem ofBits_64 : Ideal.ofBits .f32 0x42800000#32 = ((64 : ℝ) : EReal) := by
  simp [Ideal.ofBits, Ideal.ieee, -EReal.coe_mul]; norm_num

/-- The bf16 zero word denotes 0. -/
theorem ofBits_zero_bf16 : Ideal.ofBits .bf16 0x0000#16 = 0 := by simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]; exact Real.sqrt_sq (by norm_num)
  rw [h]

/-- Multiplying by 1/8 and dividing by the square root of 64 are one function on the extended reals: a quotient by
    a nonzero real is the product with its reciprocal, infinities included. -/
theorem scale_eq : kScale = rScale := by
  funext x
  unfold kScale rScale
  rw [ofBits_eighth, ofBits_64, sqrt_64, Ideal.div_coe (by norm_num : (8 : ℝ) ≠ 0)]

end Cert.Spec

end
-- ==== Proof.LibHeads.lean ====
/-
  Cutting a 4096×512 array into 8 heads of 64 columns, and laying the heads side by side again, as layout operations.

  Recasting a 4096×512 array to 4096×8×64 keeps the row-major position, so entry (n, h, d) of the recast array is
  entry (n, 64·h + d) of the original; exchanging the first two axes puts it at (h, n, d).  That is the array of
  heads.  The other way round, exchanging the first two axes of an 8×4096×64 array and recasting the result to
  4096×512 puts entry (e / 64, n, e mod 64) at (n, e).  Stated for every proof of the two side conditions.
-/
import Idealize.ShloMosaic.Lib.ValueIdx
import Idealize.ShloMosaic.Lib.Pipeline.Value
import proofs.«107034_j21887153340754_1_alg».proof.Proof.Spec

noncomputable section

namespace Cert.Heads

open Idealize.ShloMosaic Idealize.ShloMosaic.ValueIdx Cert.Spec

/-- A 4096×512 array recast to 4096×8×64 with its first two axes exchanged is the array of its heads. -/
theorem heads_layout (X : T2 4096 512) (h1 : (⟨2, ![4096, 512]⟩ : Shape).ShapeCasts ⟨3, ![4096, 8, 64]⟩)
    (h2 : (⟨3, ![4096, 8, 64]⟩ : Shape).Transposes [1, 0, 2] ⟨3, ![8, 4096, 64]⟩) :
    transpose ⟨3, ![8, 4096, 64]⟩ [1, 0, 2] (shapeCast ⟨3, ![4096, 8, 64]⟩ X h1) h2 = heads X := by
  funext i
  obtain ⟨h, n, d, rfl⟩ : ∃ (h : Fin 8) (n : Fin 4096) (d : Fin 64), i = ix3 h n d := ⟨i 0, i 1, i 2, eq_ix3 i⟩
  have hh := h.isLt
  have hd := d.isLt
  refine (transpose_apply [1, 0, 2] (shapeCast ⟨3, ![4096, 8, 64]⟩ X h1) h2 (ix3 h n d) (ix3 n h d) (fun b =>
    match b with
    | ⟨0, _⟩ => rfl
    | ⟨1, _⟩ => rfl
    | ⟨2, _⟩ => rfl)).trans ?_
  refine (shapeCast_apply X h1 (ix3 n h d) (ix2 n (hcol h d)) (by
    rewrite [Shape.rowMajor_val_two, Shape.rowMajor_val_three]
    show n.val * 512 + (h.val * 64 + d.val) = (n.val * 8 + h.val) * 64 + d.val
    omega)).trans ?_
  rfl

/-- An 8×4096×64 array with its first two axes exchanged, recast to 4096×512, is its heads laid side by side. -/
theorem flat_layout (Y : T3 8 4096 64) (h1 : (⟨3, ![8, 4096, 64]⟩ : Shape).Transposes [1, 0, 2] ⟨3, ![4096, 8, 64]⟩)
    (h2 : (⟨3, ![4096, 8, 64]⟩ : Shape).ShapeCasts ⟨2, ![4096, 512]⟩) :
    shapeCast ⟨2, ![4096, 512]⟩ (transpose ⟨3, ![4096, 8, 64]⟩ [1, 0, 2] Y h1) h2 = flat Y := by
  funext j
  obtain ⟨n, e, rfl⟩ : ∃ (n : Fin 4096) (e : Fin 512), j = ix2 n e := ⟨j 0, j 1, eq_ix2 j⟩
  have he := e.isLt
  refine (shapeCast_apply (transpose ⟨3, ![4096, 8, 64]⟩ [1, 0, 2] Y h1) h2 (ix2 n e)
    (ix3 n (⟨e.val / 64, by omega⟩ : Fin 8) (⟨e.val % 64, Nat.mod_lt _ (by decide)⟩ : Fin 64)) (by
    rewrite [Shape.rowMajor_val_two, Shape.rowMajor_val_three]
    show (n.val * 8 + e.val / 64) * 64 + e.val % 64 = n.val * 512 + e.val
    omega)).trans ?_
  refine (transpose_apply [1, 0, 2] Y h1 (ix3 n (⟨e.val / 64, by omega⟩ : Fin 8) (⟨e.val % 64, Nat.mod_lt _ (by decide)⟩ : Fin 64))
    (ix3 (⟨e.val / 64, by omega⟩ : Fin 8) n (⟨e.val % 64, Nat.mod_lt _ (by decide)⟩ : Fin 64)) (fun b =>
    match b with
    | ⟨0, _⟩ => rfl
    | ⟨1, _⟩ => rfl
    | ⟨2, _⟩ => rfl)).trans ?_
  rfl

end Cert.Heads

end
-- ==== Proof.KEntry.lean ====
/-
  What each kernel launch finds in its operand arrays.

  Before a launch the host operations prepare its operands from the argument arrays and from earlier launches'
  outputs: a weight matrix changes float format (which keeps every value at the exact reading), a bias of N numbers
  is recast as a 1×N array, a 4096×512 projection is cut into 8 heads of 64 columns, and the heads' outputs are laid
  side by side again.
-/
import proofs.«107034_j21887153340754_1_alg».proof.Proof.Gen.KernelIdeal.Frame
import proofs.«107034_j21887153340754_1_alg».proof.Proof.KWalk
import proofs.«107034_j21887153340754_1_alg».proof.Proof.LibHeads
import Idealize.ShloMosaic.Lib.ValueIdx
import Idealize.ShloMosaic.Lib.StableHlo.Run
import Idealize.ShloMosaic.Lib.Pipeline.Value

set_option maxRecDepth 16384

noncomputable section

namespace Cert.KernelIdeal.KEntry

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- A stretch of host operations leaves a buffer none of them writes as it was. -/
macro "keep_host " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

open Cert.Spec

/-- When the first launch begins its layer-1 weight array holds argument 1 (the change of float format keeps every value). -/
theorem e0_w1 (c : Dev nD) : @Eq (T2 1000 2048) (W1 m ρ c (Proc.devRef .tc main_v0)) (m ((c : Thread nD τ).loc main_arg1)) := by
  show StableHlo.after hostOps0 (W0 m ρ c) (Proc.devRef .tc main_v0) = _
  after_results
  rfl

/-- When the first launch begins its layer-1 bias row holds argument 2 recast as a 1×2048 array. -/
theorem e0_b1 (c : Dev nD) : @Eq (T2 1 2048) (W1 m ρ c (Proc.devRef .tc main_v3))
    (shapeCast ⟨2, ![1, 2048]⟩ ((m ((c : Thread nD τ).loc main_arg2)) : T1 2048) shapeCasts_S2048_S1x2048) := by
  show StableHlo.after hostOps0 (W0 m ρ c) (Proc.devRef .tc main_v3) = _
  after_results
  rfl

/-- When the first launch begins its layer-2 weight array holds argument 3 (the change of float format keeps every value). -/
theorem e0_w2 (c : Dev nD) : @Eq (T2 2048 1024) (W1 m ρ c (Proc.devRef .tc main_v1)) (m ((c : Thread nD τ).loc main_arg3)) := by
  show StableHlo.after hostOps0 (W0 m ρ c) (Proc.devRef .tc main_v1) = _
  after_results
  rfl

/-- When the first launch begins its layer-2 bias row holds argument 4 recast as a 1×1024 array. -/
theorem e0_b2 (c : Dev nD) : @Eq (T2 1 1024) (W1 m ρ c (Proc.devRef .tc main_v4))
    (shapeCast ⟨2, ![1, 1024]⟩ ((m ((c : Thread nD τ).loc main_arg4)) : T1 1024) shapeCasts_S1024_S1x1024) := by
  show StableHlo.after hostOps0 (W0 m ρ c) (Proc.devRef .tc main_v4) = _
  after_results
  rfl

/-- When the first launch begins its layer-3 weight array holds argument 5 (the change of float format keeps every value). -/
theorem e0_w3 (c : Dev nD) : @Eq (T2 1024 512) (W1 m ρ c (Proc.devRef .tc main_v2)) (m ((c : Thread nD τ).loc main_arg5)) := by
  show StableHlo.after hostOps0 (W0 m ρ c) (Proc.devRef .tc main_v2) = _
  after_results
  rfl

/-- When the first launch begins its layer-3 bias row holds argument 6 recast as a 1×512 array. -/
theorem e0_b3 (c : Dev nD) : @Eq (T2 1 512) (W1 m ρ c (Proc.devRef .tc main_v5))
    (shapeCast ⟨2, ![1, 512]⟩ ((m ((c : Thread nD τ).loc main_arg6)) : T1 512) shapeCasts_S512_S1x512) := by
  show StableHlo.after hostOps0 (W0 m ρ c) (Proc.devRef .tc main_v5) = _
  after_results
  rfl

/-- When the second launch begins its layer-1 weight array holds argument 7 (the change of float format keeps every value). -/
theorem e1_w1 (c : Dev nD) : @Eq (T2 1000 2048) (W3 m ρ c (Proc.devRef .tc main_v7)) (m ((c : Thread nD τ).loc main_arg7)) := by
  refine Eq.trans ?_ (KWalk.arg7_at2 m ρ c)
  show StableHlo.after hostOps1 (W2 m ρ c) (Proc.devRef .tc main_v7) = _
  after_results
  rfl

/-- When the second launch begins its layer-1 bias row holds argument 8 recast as a 1×2048 array. -/
theorem e1_b1 (c : Dev nD) : @Eq (T2 1 2048) (W3 m ρ c (Proc.devRef .tc main_v10))
    (shapeCast ⟨2, ![1, 2048]⟩ ((m ((c : Thread nD τ).loc main_arg8)) : T1 2048) shapeCasts_S2048_S1x2048) := by
  refine Eq.trans ?_ (congrArg (fun X : T1 2048 => shapeCast ⟨2, ![1, 2048]⟩ X shapeCasts_S2048_S1x2048) (KWalk.arg8_at2 m ρ c))
  show StableHlo.after hostOps1 (W2 m ρ c) (Proc.devRef .tc main_v10) = _
  after_results
  rfl

/-- When the second launch begins its layer-2 weight array holds argument 9 (the change of float format keeps every value). -/
theorem e1_w2 (c : Dev nD) : @Eq (T2 2048 1024) (W3 m ρ c (Proc.devRef .tc main_v8)) (m ((c : Thread nD τ).loc main_arg9)) := by
  refine Eq.trans ?_ (KWalk.arg9_at2 m ρ c)
  show StableHlo.after hostOps1 (W2 m ρ c) (Proc.devRef .tc main_v8) = _
  after_results
  rfl

/-- When the second launch begins its layer-2 bias row holds argument 10 recast as a 1×1024 array. -/
theorem e1_b2 (c : Dev nD) : @Eq (T2 1 1024) (W3 m ρ c (Proc.devRef .tc main_v11))
    (shapeCast ⟨2, ![1, 1024]⟩ ((m ((c : Thread nD τ).loc main_arg10)) : T1 1024) shapeCasts_S1024_S1x1024) := by
  refine Eq.trans ?_ (congrArg (fun X : T1 1024 => shapeCast ⟨2, ![1, 1024]⟩ X shapeCasts_S1024_S1x1024) (KWalk.arg10_at2 m ρ c))
  show StableHlo.after hostOps1 (W2 m ρ c) (Proc.devRef .tc main_v11) = _
  after_results
  rfl

/-- When the second launch begins its layer-3 weight array holds argument 11 (the change of float format keeps every value). -/
theorem e1_w3 (c : Dev nD) : @Eq (T2 1024 512) (W3 m ρ c (Proc.devRef .tc main_v9)) (m ((c : Thread nD τ).loc main_arg11)) := by
  refine Eq.trans ?_ (KWalk.arg11_at2 m ρ c)
  show StableHlo.after hostOps1 (W2 m ρ c) (Proc.devRef .tc main_v9) = _
  after_results
  rfl

/-- When the second launch begins its layer-3 bias row holds argument 12 recast as a 1×512 array. -/
theorem e1_b3 (c : Dev nD) : @Eq (T2 1 512) (W3 m ρ c (Proc.devRef .tc main_v12))
    (shapeCast ⟨2, ![1, 512]⟩ ((m ((c : Thread nD τ).loc main_arg12)) : T1 512) shapeCasts_S512_S1x512) := by
  refine Eq.trans ?_ (congrArg (fun X : T1 512 => shapeCast ⟨2, ![1, 512]⟩ X shapeCasts_S512_S1x512) (KWalk.arg12_at2 m ρ c))
  show StableHlo.after hostOps1 (W2 m ρ c) (Proc.devRef .tc main_v12) = _
  after_results
  rfl

/-- When the third launch begins its layer-1 weight array holds argument 13 (the change of float format keeps every value). -/
theorem e2_w1 (c : Dev nD) : @Eq (T2 1000 2048) (W5 m ρ c (Proc.devRef .tc main_v14)) (m ((c : Thread nD τ).loc main_arg13)) := by
  refine Eq.trans ?_ (KWalk.arg13_at4 m ρ c)
  show StableHlo.after hostOps2 (W4 m ρ c) (Proc.devRef .tc main_v14) = _
  after_results
  rfl

/-- When the third launch begins its layer-1 bias row holds argument 14 recast as a 1×2048 array. -/
theorem e2_b1 (c : Dev nD) : @Eq (T2 1 2048) (W5 m ρ c (Proc.devRef .tc main_v17))
    (shapeCast ⟨2, ![1, 2048]⟩ ((m ((c : Thread nD τ).loc main_arg14)) : T1 2048) shapeCasts_S2048_S1x2048) := by
  refine Eq.trans ?_ (congrArg (fun X : T1 2048 => shapeCast ⟨2, ![1, 2048]⟩ X shapeCasts_S2048_S1x2048) (KWalk.arg14_at4 m ρ c))
  show StableHlo.after hostOps2 (W4 m ρ c) (Proc.devRef .tc main_v17) = _
  after_results
  rfl

/-- When the third launch begins its layer-2 weight array holds argument 15 (the change of float format keeps every value). -/
theorem e2_w2 (c : Dev nD) : @Eq (T2 2048 1024) (W5 m ρ c (Proc.devRef .tc main_v15)) (m ((c : Thread nD τ).loc main_arg15)) := by
  refine Eq.trans ?_ (KWalk.arg15_at4 m ρ c)
  show StableHlo.after hostOps2 (W4 m ρ c) (Proc.devRef .tc main_v15) = _
  after_results
  rfl

/-- When the third launch begins its layer-2 bias row holds argument 16 recast as a 1×1024 array. -/
theorem e2_b2 (c : Dev nD) : @Eq (T2 1 1024) (W5 m ρ c (Proc.devRef .tc main_v18))
    (shapeCast ⟨2, ![1, 1024]⟩ ((m ((c : Thread nD τ).loc main_arg16)) : T1 1024) shapeCasts_S1024_S1x1024) := by
  refine Eq.trans ?_ (congrArg (fun X : T1 1024 => shapeCast ⟨2, ![1, 1024]⟩ X shapeCasts_S1024_S1x1024) (KWalk.arg16_at4 m ρ c))
  show StableHlo.after hostOps2 (W4 m ρ c) (Proc.devRef .tc main_v18) = _
  after_results
  rfl

/-- When the third launch begins its layer-3 weight array holds argument 17 (the change of float format keeps every value). -/
theorem e2_w3 (c : Dev nD) : @Eq (T2 1024 512) (W5 m ρ c (Proc.devRef .tc main_v16)) (m ((c : Thread nD τ).loc main_arg17)) := by
  refine Eq.trans ?_ (KWalk.arg17_at4 m ρ c)
  show StableHlo.after hostOps2 (W4 m ρ c) (Proc.devRef .tc main_v16) = _
  after_results
  rfl

/-- When the third launch begins its layer-3 bias row holds argument 18 recast as a 1×512 array. -/
theorem e2_b3 (c : Dev nD) : @Eq (T2 1 512) (W5 m ρ c (Proc.devRef .tc main_v19))
    (shapeCast ⟨2, ![1, 512]⟩ ((m ((c : Thread nD τ).loc main_arg18)) : T1 512) shapeCasts_S512_S1x512) := by
  refine Eq.trans ?_ (congrArg (fun X : T1 512 => shapeCast ⟨2, ![1, 512]⟩ X shapeCasts_S512_S1x512) (KWalk.arg18_at4 m ρ c))
  show StableHlo.after hostOps2 (W4 m ρ c) (Proc.devRef .tc main_v19) = _
  after_results
  rfl

/-- When the fourth launch begins its first operand holds the heads of the first launch's output. -/
theorem e3_q (c : Dev nD) : @Eq (T3 8 4096 64) (W7 m ρ c (Proc.devRef .tc main_v23)) (heads ((W2 m ρ c (Proc.devRef .tc main_v6)) : T2 4096 512)) := by
  refine Eq.trans ?_ (Cert.Heads.heads_layout _ shapeCasts_S4096x512_S4096x8x64 transposes_S4096x8x64_S8x4096x64_1_0_2)
  refine Eq.trans ?_ (congrArg (fun X : T2 4096 512 => transpose ⟨3, ![8, 4096, 64]⟩ [1, 0, 2] (shapeCast ⟨3, ![4096, 8, 64]⟩ X shapeCasts_S4096x512_S4096x8x64) transposes_S4096x8x64_S8x4096x64_1_0_2) (KWalk.q_at6 m ρ c))
  show StableHlo.after hostOps3 (W6 m ρ c) (Proc.devRef .tc main_v23) = _
  after_results
  rfl

/-- When the fourth launch begins its second operand holds the heads of the second launch's output. -/
theorem e3_k (c : Dev nD) : @Eq (T3 8 4096 64) (W7 m ρ c (Proc.devRef .tc main_v26)) (heads ((W4 m ρ c (Proc.devRef .tc main_v13)) : T2 4096 512)) := by
  refine Eq.trans ?_ (Cert.Heads.heads_layout _ shapeCasts_S4096x512_S4096x8x64 transposes_S4096x8x64_S8x4096x64_1_0_2)
  refine Eq.trans ?_ (congrArg (fun X : T2 4096 512 => transpose ⟨3, ![8, 4096, 64]⟩ [1, 0, 2] (shapeCast ⟨3, ![4096, 8, 64]⟩ X shapeCasts_S4096x512_S4096x8x64) transposes_S4096x8x64_S8x4096x64_1_0_2) (KWalk.k_at6 m ρ c))
  show StableHlo.after hostOps3 (W6 m ρ c) (Proc.devRef .tc main_v26) = _
  after_results
  rfl

/-- When the fourth launch begins its third operand holds the heads of the third launch's output. -/
theorem e3_v (c : Dev nD) : @Eq (T3 8 4096 64) (W7 m ρ c (Proc.devRef .tc main_v29)) (heads ((W6 m ρ c (Proc.devRef .tc main_v20)) : T2 4096 512)) := by
  refine Eq.trans ?_ (Cert.Heads.heads_layout _ shapeCasts_S4096x512_S4096x8x64 transposes_S4096x8x64_S8x4096x64_1_0_2)
  show StableHlo.after hostOps3 (W6 m ρ c) (Proc.devRef .tc main_v29) = _
  after_results
  rfl

/-- When the last launch begins its first operand holds the fourth launch's output with the heads laid side by side. -/
theorem e4_a (c : Dev nD) : @Eq (T2 4096 512) (W9 m ρ c (Proc.devRef .tc main_v32)) (flat ((W8 m ρ c (Proc.devRef .tc main_v30)) : T3 8 4096 64)) := by
  refine Eq.trans ?_ (Cert.Heads.flat_layout _ transposes_S8x4096x64_S4096x8x64_1_0_2 shapeCasts_S4096x8x64_S4096x512)
  show StableHlo.after hostOps4 (W8 m ρ c) (Proc.devRef .tc main_v32) = _
  after_results
  rfl

/-- When the last launch begins its weight array holds argument 19. -/
theorem e4_w (c : Dev nD) : @Eq (T2 512 1000) (W9 m ρ c (Proc.devRef .tc main_v33)) (m ((c : Thread nD τ).loc main_arg19)) := by
  refine Eq.trans ?_ (KWalk.arg19_at8 m ρ c)
  show StableHlo.after hostOps4 (W8 m ρ c) (Proc.devRef .tc main_v33) = _
  after_results
  rfl

/-- When the last launch begins its bias row holds argument 20 recast as a 1×1000 array. -/
theorem e4_b (c : Dev nD) : @Eq (T2 1 1000) (W9 m ρ c (Proc.devRef .tc main_v34))
    (shapeCast ⟨2, ![1, 1000]⟩ ((m ((c : Thread nD τ).loc main_arg20)) : T1 1000) shapeCasts_S1000_S1x1000) := by
  refine Eq.trans ?_ (congrArg (fun X : T1 1000 => shapeCast ⟨2, ![1, 1000]⟩ X shapeCasts_S1000_S1x1000) (KWalk.arg20_at8 m ρ c))
  show StableHlo.after hostOps4 (W8 m ρ c) (Proc.devRef .tc main_v34) = _
  after_results
  rfl

end Cert.KernelIdeal.KEntry

end
-- ==== Proof.KBlock.lean ====
/-
  Three dense layers on a block of rows, read one entry at a time.

  The vector unit takes a block of M rows through the three layers at once; entry (p, q) of what it stores is the
  three layers applied to row p of the block, at q.  Rows do not mix, so a block's result is the restriction of the
  whole array's.
-/
import proofs.«107034_j21887153340754_1_alg».proof.Proof.Spec

noncomputable section

open scoped BigOperators

namespace Cert.KBlock

open Idealize.ShloMosaic Idealize.ShloMosaic.ValueIdx Cert.RowDot Cert.Dense Cert.Spec

/-- Three dense layers on one row, the biases given as functions of the column. -/
def mlpRowF (W1 : T2 1000 2048) (β1 : Fin 2048 → EReal) (W2 : T2 2048 1024) (β2 : Fin 1024 → EReal) (W3 : T2 1024 512)
    (β3 : Fin 512 → EReal) (row : Fin 1000 → EReal) : Fin 512 → EReal :=
  dense W3 β3 (relu (dense W2 β2 (relu (dense W1 β1 row))))

theorem mlpRow_eq (W1 : T2 1000 2048) (b1 : T1 2048) (W2 : T2 2048 1024) (b2 : T1 1024) (W3 : T2 1024 512) (b3 : T1 512) :
    mlpRow W1 b1 W2 b2 W3 b3 = mlpRowF W1 (biasVec b1) W2 (biasVec b2) W3 (biasVec b3) := rfl

/-- The three layers on every row of x, the biases kept as 1×N arrays. -/
def mlpB (x : T2 4096 1000) (W1 : T2 1000 2048) (b1 : T2 1 2048) (W2 : T2 2048 1024) (b2 : T2 1 1024) (W3 : T2 1024 512)
    (b3 : T2 1 512) : T2 4096 512 :=
  fun j => mlpRowF W1 (biasRow b1) W2 (biasRow b2) W3 (biasRow b3) (rowOf x (j 0)) (j 1)

/-- One dense map on every row, the bias kept as a 1×N array. -/
def outB (a : T2 4096 512) (W : T2 512 1000) (b : T2 1 1000) : T2 4096 1000 :=
  fun j => dense W (biasRow b) (rowOf a (j 0)) (j 1)

end Cert.KBlock

end
-- ==== Proof.KMlp0.lean ====
/-
  The first of the three row-wise launches, read as one function of the arrays it finds.

  Each of its 8 grid points loads 512 rows of the input and the whole of the three weight matrices and bias rows,
  and stores the three dense layers (a rectifier after the first two) of those rows.  Entry (p, q) of a stored block
  depends on row p of the block alone, so block t is rows 512·t … 512·t + 511 of the three layers applied to every
  row of the input; the blocks tile the output array, which therefore ends holding that function.
-/
import proofs.«107034_j21887153340754_1_alg».proof.Proof.Gen.KernelIdeal.Frame
import proofs.«107034_j21887153340754_1_alg».proof.Proof.KBlock
import Idealize.ShloMosaic.Lib.Pipeline.Value
import Idealize.ShloMosaic.Lib.ValueLayout

set_option maxRecDepth 16384

noncomputable section

open scoped BigOperators

namespace Cert.KernelIdeal.KMlp0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.RowDot Cert.Dense Cert.Spec Cert.KBlock

/-! The first launch: 8 grid points, each taking a block of 512 rows of the input through the three dense layers. -/

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of what the body stores: the three layers applied to row p of the block of rows it loaded. -/
theorem pay_apply (v0 : Vec Ideal S512x1000 .f32) (v2 : Vec Ideal S1000x2048 .bf16) (v5 : Vec Ideal S1x2048 .f32)
    (v12 : Vec Ideal S2048x1024 .bf16) (v15 : Vec Ideal S1x1024 .f32) (v22 : Vec Ideal S1024x512 .bf16)
    (v25 : Vec Ideal S1x512 .f32) (p q : Fin 512) :
    k0_pay1 (F := Ideal) v0 v2 v5 v12 v15 v22 v25 (ix2 p q)
      = mlpRowF v2 (biasRow v5) v12 (biasRow v15) v22 (biasRow v25) (rowOf v0 p) q := by
  unfold k0_pay1 mlpRowF
  refine (dense_block_apply (M := 512) (K := 1024) (N := 512) none _ v22 v25 _ _ _ p q).trans ?_
  refine congrArg (fun r => dense v22 (biasRow v25) r q) (funext fun k => ?_)
  refine (relu_dense_block_apply (M := 512) (K := 2048) (N := 1024) none _ v12 v15 _ _ _ _ p k).trans ?_
  refine congrArg (fun r => relu (dense v12 (biasRow v15) r) k) (funext fun k' => ?_)
  exact relu_dense_block_apply (M := 512) (K := 1000) (N := 2048) none _ v2 v5 _ _ _ _ p k'

/-- The block indices over the grid: point t takes rows 512·t … 512·t + 511 of the input and of the output, and the
    whole of each weight and bias array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem blk1 (c : Dev nD) (t : Fin cfg0.N) : iblk0 V c 1 t = (V c main_v0 : S1000x2048.Idx → Elt Ideal .bf16) := by
  obtain ⟨-, -, e0, e1, -⟩ := idx_facts t
  funext y
  show (V c main_v0 : S1000x2048.Idx → Elt Ideal .bf16) (((cfg0.win 1).blk t).view.emb y) = V c main_v0 y
  refine congrArg _ (funext fun a => Fin.ext ?_)
  match a with
  | ⟨0, _⟩ => show win0_1.index t (0 : Fin 2) * 1000 + 1 * (y 0).val = (y 0).val; omega
  | ⟨1, _⟩ => show win0_1.index t (1 : Fin 2) * 2048 + 1 * (y 1).val = (y 1).val; omega

theorem blk2 (c : Dev nD) (t : Fin cfg0.N) : iblk0 V c 2 t = (V c main_v3 : S1x2048.Idx → Elt Ideal .f32) := by
  obtain ⟨-, -, -, -, e0, e1, -⟩ := idx_facts t
  funext y
  show (V c main_v3 : S1x2048.Idx → Elt Ideal .f32) (((cfg0.win 2).blk t).view.emb y) = V c main_v3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem blk3 (c : Dev nD) (t : Fin cfg0.N) : iblk0 V c 3 t = (V c main_v1 : S2048x1024.Idx → Elt Ideal .bf16) := by
  obtain ⟨-, -, -, -, -, -, e0, e1, -⟩ := idx_facts t
  funext y
  show (V c main_v1 : S2048x1024.Idx → Elt Ideal .bf16) (((cfg0.win 3).blk t).view.emb y) = V c main_v1 y
  refine congrArg _ (funext fun a => Fin.ext ?_)
  match a with
  | ⟨0, _⟩ => show win0_3.index t (0 : Fin 2) * 2048 + 1 * (y 0).val = (y 0).val; omega
  | ⟨1, _⟩ => show win0_3.index t (1 : Fin 2) * 1024 + 1 * (y 1).val = (y 1).val; omega

theorem blk4 (c : Dev nD) (t : Fin cfg0.N) : iblk0 V c 4 t = (V c main_v4 : S1x1024.Idx → Elt Ideal .f32) := by
  obtain ⟨-, -, -, -, -, -, -, -, e0, e1, -⟩ := idx_facts t
  funext y
  show (V c main_v4 : S1x1024.Idx → Elt Ideal .f32) (((cfg0.win 4).blk t).view.emb y) = V c main_v4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

theorem blk5 (c : Dev nD) (t : Fin cfg0.N) : iblk0 V c 5 t = (V c main_v2 : S1024x512.Idx → Elt Ideal .bf16) := by
  obtain ⟨-, -, -, -, -, -, -, -, -, -, e0, e1, -⟩ := idx_facts t
  funext y
  show (V c main_v2 : S1024x512.Idx → Elt Ideal .bf16) (((cfg0.win 5).blk t).view.emb y) = V c main_v2 y
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 512 + 1 * (y 1).val = (y 1).val; omega

theorem blk6 (c : Dev nD) (t : Fin cfg0.N) : iblk0 V c 6 t = (V c main_v5 : S1x512.Idx → Elt Ideal .f32) := by
  obtain ⟨-, -, -, -, -, -, -, -, -, -, -, -, e0, e1, -⟩ := idx_facts t
  funext y
  show (V c main_v5 : S1x512.Idx → Elt Ideal .f32) (((cfg0.win 6).blk t).view.emb y) = V c main_v5 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- Row p of point t's input block is row 512·t + p of the array. -/
theorem blk0_row (c : Dev nD) (t : Fin cfg0.N) (p : Fin 512) (r : Fin 4096) (hr : r.val = t.val * 512 + p.val) :
    rowOf (iblk0 V c 0 t) p = rowOf (V c main_arg0 : S4096x1000.Idx → Elt Ideal .f32) r := by
  obtain ⟨e0, e1, -⟩ := idx_facts t
  funext k
  show (V c main_arg0 : S4096x1000.Idx → Elt Ideal .f32) (((cfg0.win 0).blk t).view.emb (ix2 p k)) = V c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 1000 + 1 * k.val = k.val; omega

/-- What point t writes back is its block of rows of the three layers applied to every row of the input array. -/
theorem flushed_eq (c : Dev nD) (t : Fin cfg0.N) :
    (dat0 V c).flushed 7 t = ((cfg0.win 7).blk t).view.read (Elt Ideal)
      (mlpB (V c main_arg0) (V c main_v0) (V c main_v3) (V c main_v1) (V c main_v4) (V c main_v2) (V c main_v5)) := by
  show (cfg0.win 7).cut (grid0.coords t) ((dat0 V c).after 7 t) = _
  rw [after0_7]
  unfold out0_7
  rw [View.canon_unit_zero hz]
  simp only [View.ld_unit_zero (S := S512x1000) hz, View.ld_unit_zero (S := S1000x2048) hz, View.ld_unit_zero (S := S1x2048) hz,
    View.ld_unit_zero (S := S2048x1024) hz, View.ld_unit_zero (S := S1x1024) hz, View.ld_unit_zero (S := S1024x512) hz,
    View.ld_unit_zero (S := S1x512) hz]
  rw [blk1 V c t, blk2 V c t, blk3 V c t, blk4 V c t, blk5 V c t, blk6 V c t]
  have ht : t.val < 8 := lt_of_lt_of_eq t.isLt (show cfg0.N = 8 from N_0)
  obtain ⟨-, -, -, -, -, -, -, -, -, -, -, -, -, -, e0, e1⟩ := idx_facts t
  funext y
  obtain ⟨p, q, rfl⟩ : ∃ (p : Fin 512) (q : Fin 512), y = ix2 p q := ⟨y 0, y 1, eq_ix2 y⟩
  refine (pay_apply _ _ _ _ _ _ _ p q).trans ?_
  rw [blk0_row V c t p ⟨t.val * 512 + p.val, by have := p.isLt; omega⟩ rfl]
  show _ = mlpB (V c main_arg0) (V c main_v0) (V c main_v3) (V c main_v1) (V c main_v4) (V c main_v2) (V c main_v5)
    (((cfg0.win 7).blk t).view.emb (ix2 p q))
  have he : ((cfg0.win 7).blk t).view.emb (ix2 p q)
      = (ix2 (⟨t.val * 512 + p.val, by have := p.isLt; omega⟩ : Fin 4096) q : S4096x512.Idx) :=
    funext fun a => Fin.ext (by
      match a with
      | ⟨0, _⟩ => show win0_7.index t (0 : Fin 2) * 512 + 1 * p.val = t.val * 512 + p.val; omega
      | ⟨1, _⟩ => show win0_7.index t (1 : Fin 2) * 512 + 1 * q.val = q.val; omega)
  rw [he]
  rfl

theorem mem_blk (t : Fin cfg0.N) (i : S4096x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v6).slice (win0_7.rect t)).set ↔ _
  rw [View.set_slice_whole, Rect.mem_set_unit]
  exact Iff.rfl

/-- Row r of the output lies in the block of point r / 512. -/
theorem cover (i : S4096x512.Idx) :
    ∃ t : Fin cfg0.N, (cfg0.win 7).flush t = true ∧ i ∈ ((cfg0.win 7).blk t).view.set := by
  have hi0 : (i 0).val < 4096 := (i 0).isLt
  have hi1 : (i 1).val < 512 := (i 1).isLt
  let t : Fin cfg0.N := ⟨(i 0).val / 512, by rw [show cfg0.N = 8 from N_0]; omega⟩
  refine ⟨t, flush0_7 t, ?_⟩
  rw [mem_blk]
  obtain ⟨-, -, -, -, -, -, -, -, -, -, -, -, -, -, e0, e1⟩ := idx_facts t
  have htv : t.val = (i 0).val / 512 := rfl
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-- After the launch the output array holds the three layers applied to every row of the input array, whatever the
    arrays held when the launch began. -/
theorem final (c : Dev nD) : (dat0 V c).arrAt 7 cfg0.N
    = mlpB (V c main_arg0) (V c main_v0) (V c main_v3) (V c main_v1) (V c main_v4) (V c main_v2) (V c main_v5) :=
  (dat0 V c).arrAt_eq_of_cover 7 _ (fun t _ => flushed_eq V c t) cover

end Cert.KernelIdeal.KMlp0

end
-- ==== Proof.KMlp1.lean ====
/-
  The second of the three row-wise launches, read as one function of the arrays it finds.

  Each of its 8 grid points loads 512 rows of the input and the whole of the three weight matrices and bias rows,
  and stores the three dense layers (a rectifier after the first two) of those rows.  Entry (p, q) of a stored block
  depends on row p of the block alone, so block t is rows 512·t … 512·t + 511 of the three layers applied to every
  row of the input; the blocks tile the output array, which therefore ends holding that function.
-/
import proofs.«107034_j21887153340754_1_alg».proof.Proof.Gen.KernelIdeal.Frame
import proofs.«107034_j21887153340754_1_alg».proof.Proof.KBlock
import Idealize.ShloMosaic.Lib.Pipeline.Value
import Idealize.ShloMosaic.Lib.ValueLayout

set_option maxRecDepth 16384

noncomputable section

open scoped BigOperators

namespace Cert.KernelIdeal.KMlp1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.RowDot Cert.Dense Cert.Spec Cert.KBlock

/-! The second launch: 8 grid points, each taking a block of 512 rows of the input through the three dense layers. -/

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of what the body stores: the three layers applied to row p of the block of rows it loaded. -/
theorem pay_apply (v0 : Vec Ideal S512x1000 .f32) (v2 : Vec Ideal S1000x2048 .bf16) (v5 : Vec Ideal S1x2048 .f32)
    (v12 : Vec Ideal S2048x1024 .bf16) (v15 : Vec Ideal S1x1024 .f32) (v22 : Vec Ideal S1024x512 .bf16)
    (v25 : Vec Ideal S1x512 .f32) (p q : Fin 512) :
    k1_pay1 (F := Ideal) v0 v2 v5 v12 v15 v22 v25 (ix2 p q)
      = mlpRowF v2 (biasRow v5) v12 (biasRow v15) v22 (biasRow v25) (rowOf v0 p) q := by
  unfold k1_pay1 mlpRowF
  refine (dense_block_apply (M := 512) (K := 1024) (N := 512) none _ v22 v25 _ _ _ p q).trans ?_
  refine congrArg (fun r => dense v22 (biasRow v25) r q) (funext fun k => ?_)
  refine (relu_dense_block_apply (M := 512) (K := 2048) (N := 1024) none _ v12 v15 _ _ _ _ p k).trans ?_
  refine congrArg (fun r => relu (dense v12 (biasRow v15) r) k) (funext fun k' => ?_)
  exact relu_dense_block_apply (M := 512) (K := 1000) (N := 2048) none _ v2 v5 _ _ _ _ p k'

/-- The block indices over the grid: point t takes rows 512·t … 512·t + 511 of the input and of the output, and the
    whole of each weight and bias array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem blk1 (c : Dev nD) (t : Fin cfg1.N) : iblk1 V c 1 t = (V c main_v7 : S1000x2048.Idx → Elt Ideal .bf16) := by
  obtain ⟨-, -, e0, e1, -⟩ := idx_facts t
  funext y
  show (V c main_v7 : S1000x2048.Idx → Elt Ideal .bf16) (((cfg1.win 1).blk t).view.emb y) = V c main_v7 y
  refine congrArg _ (funext fun a => Fin.ext ?_)
  match a with
  | ⟨0, _⟩ => show win1_1.index t (0 : Fin 2) * 1000 + 1 * (y 0).val = (y 0).val; omega
  | ⟨1, _⟩ => show win1_1.index t (1 : Fin 2) * 2048 + 1 * (y 1).val = (y 1).val; omega

theorem blk2 (c : Dev nD) (t : Fin cfg1.N) : iblk1 V c 2 t = (V c main_v10 : S1x2048.Idx → Elt Ideal .f32) := by
  obtain ⟨-, -, -, -, e0, e1, -⟩ := idx_facts t
  funext y
  show (V c main_v10 : S1x2048.Idx → Elt Ideal .f32) (((cfg1.win 2).blk t).view.emb y) = V c main_v10 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 2048 + 1 * (y 1).val = (y 1).val; omega

theorem blk3 (c : Dev nD) (t : Fin cfg1.N) : iblk1 V c 3 t = (V c main_v8 : S2048x1024.Idx → Elt Ideal .bf16) := by
  obtain ⟨-, -, -, -, -, -, e0, e1, -⟩ := idx_facts t
  funext y
  show (V c main_v8 : S2048x1024.Idx → Elt Ideal .bf16) (((cfg1.win 3).blk t).view.emb y) = V c main_v8 y
  refine congrArg _ (funext fun a => Fin.ext ?_)
  match a with
  | ⟨0, _⟩ => show win1_3.index t (0 : Fin 2) * 2048 + 1 * (y 0).val = (y 0).val; omega
  | ⟨1, _⟩ => show win1_3.index t (1 : Fin 2) * 1024 + 1 * (y 1).val = (y 1).val; omega

theorem blk4 (c : Dev nD) (t : Fin cfg1.N) : iblk1 V c 4 t = (V c main_v11 : S1x1024.Idx → Elt Ideal .f32) := by
  obtain ⟨-, -, -, -, -, -, -, -, e0, e1, -⟩ := idx_facts t
  funext y
  show (V c main_v11 : S1x1024.Idx → Elt Ideal .f32) (((cfg1.win 4).blk t).view.emb y) = V c main_v11 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 1024 + 1 * (y 1).val = (y 1).val; omega

theorem blk5 (c : Dev nD) (t : Fin cfg1.N) : iblk1 V c 5 t = (V c main_v9 : S1024x512.Idx → Elt Ideal .bf16) := by
  obtain ⟨-, -, -, -, -, -, -, -, -, -, e0, e1, -⟩ := idx_facts t
  funext y
  show (V c main_v9 : S1024x512.Idx → Elt Ideal .bf16) (((cfg1.win 5).blk t).view.emb y) = V c main_v9 y
  refine congrArg _ (funext fun a => Fin.ext ?_)
  match a with
  | ⟨0, _⟩ => show win1_5.index t (0 : Fin 2) * 1024 + 1 * (y 0).val = (y 0).val; omega
  | ⟨1, _⟩ => show win1_5.index t (1 : Fin 2) * 512 + 1 * (y 1).val = (y 1).val; omega

theorem blk6 (c : Dev nD) (t : Fin cfg1.N) : iblk1 V c 6 t = (V c main_v12 : S1x512.Idx → Elt Ideal .f32) := by
  obtain ⟨-, -, -, -, -, -, -, -, -, -, -, -, e0, e1, -⟩ := idx_facts t
  funext y
  show (V c main_v12 : S1x512.Idx → Elt Ideal .f32) (((cfg1.win 6).blk t).view.emb y) = V c main_v12 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 512 + 1 * (y 1).val = (y 1).val; omega

/-- Row p of point t's input block is row 512·t + p of the array. -/
theorem blk0_row (c : Dev nD) (t : Fin cfg1.N) (p : Fin 512) (r : Fin 4096) (hr : r.val = t.val * 512 + p.val) :
    rowOf (iblk1 V c 0 t) p = rowOf (V c main_arg0 : S4096x1000.Idx → Elt Ideal .f32) r := by
  obtain ⟨e0, e1, -⟩ := idx_facts t
  funext k
  show (V c main_arg0 : S4096x1000.Idx → Elt Ideal .f32) (((cfg1.win 0).blk t).view.emb (ix2 p k)) = V c main_arg0 (ix2 r k)
  refine congrArg _ (funext fun a => Fin.ext ?_)
  match a with
  | ⟨0, _⟩ => show win1_0.index t (0 : Fin 2) * 512 + 1 * p.val = r.val; omega
  | ⟨1, _⟩ => show win1_0.index t (1 : Fin 2) * 1000 + 1 * k.val = k.val; omega

/-- What point t writes back is its block of rows of the three layers applied to every row of the input array. -/
theorem flushed_eq (c : Dev nD) (t : Fin cfg1.N) :
    (dat1 V c).flushed 7 t = ((cfg1.win 7).blk t).view.read (Elt Ideal)
      (mlpB (V c main_arg0) (V c main_v7) (V c main_v10) (V c main_v8) (V c main_v11) (V c main_v9) (V c main_v12)) := by
  show (cfg1.win 7).cut (grid1.coords t) ((dat1 V c).after 7 t) = _
  rw [after1_7]
  unfold out1_7
  rw [View.canon_unit_zero hz]
  simp only [View.ld_unit_zero (S := S512x1000) hz, View.ld_unit_zero (S := S1000x2048) hz, View.ld_unit_zero (S := S1x2048) hz,
    View.ld_unit_zero (S := S2048x1024) hz, View.ld_unit_zero (S := S1x1024) hz, View.ld_unit_zero (S := S1024x512) hz,
    View.ld_unit_zero (S := S1x512) hz]
  rw [blk1 V c t, blk2 V c t, blk3 V c t, blk4 V c t, blk5 V c t, blk6 V c t]
  have ht : t.val < 8 := lt_of_lt_of_eq t.isLt (show cfg1.N = 8 from N_1)
  obtain ⟨-, -, -, -, -, -, -, -, -, -, -, -, -, -, e0, e1⟩ := idx_facts t
  funext y
  obtain ⟨p, q, rfl⟩ : ∃ (p : Fin 512) (q : Fin 512), y = ix2 p q := ⟨y 0, y 1, eq_ix2 y⟩
  refine (pay_apply _ _ _ _ _ _ _ p q).trans ?_
  rw [blk0_row V c t p ⟨t.val * 512 + p.val, by have := p.isLt; omega⟩ rfl]
  show _ = mlpB (V c main_arg0) (V c main_v7) (V c main_v10) (V c main_v8) (V c main_v11) (V c main_v9) (V c main_v12)
    (((cfg1.win 7).blk t).view.emb (ix2 p q))
  have he : ((cfg1.win 7).blk t).view.emb (ix2 p q)
      = (ix2 (⟨t.val * 512 + p.val, by have := p.isLt; omega⟩ : Fin 4096) q : S4096x512.Idx) :=
    funext fun a => Fin.ext (by
      match a with
      | ⟨0, _⟩ => show win1_7.index t (0 : Fin 2) * 512 + 1 * p.val = t.val * 512 + p.val; omega
      | ⟨1, _⟩ => show win1_7.index t (1 : Fin 2) * 512 + 1 * q.val = q.val; omega)
  rw [he]
  rfl

theorem mem_blk (t : Fin cfg1.N) (i : S4096x512.Idx) :
    i ∈ ((cfg1.win 7).blk t).view.set ↔ ∀ a : Fin 2, win1_7.index t a * S512x512.size a ≤ (i a).val
      ∧ (i a).val < win1_7.index t a * S512x512.size a + S512x512.size a := by
  show i ∈ ((View.whole main_v13).slice (win1_7.rect t)).set ↔ _
  rw [View.set_slice_whole, Rect.mem_set_unit]
  exact Iff.rfl

/-- Row r of the output lies in the block of point r / 512. -/
theorem cover (i : S4096x512.Idx) :
    ∃ t : Fin cfg1.N, (cfg1.win 7).flush t = true ∧ i ∈ ((cfg1.win 7).blk t).view.set := by
  have hi0 : (i 0).val < 4096 := (i 0).isLt
  have hi1 : (i 1).val < 512 := (i 1).isLt
  let t : Fin cfg1.N := ⟨(i 0).val / 512, by rw [show cfg1.N = 8 from N_1]; omega⟩
  refine ⟨t, flush1_7 t, ?_⟩
  rw [mem_blk]
  obtain ⟨-, -, -, -, -, -, -, -, -, -, -, -, -, -, e0, e1⟩ := idx_facts t
  have htv : t.val = (i 0).val / 512 := rfl
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 512 ≤ (i 1).val ∧ (i 1).val < win1_7.index t (1 : Fin 2) * 512 + 512; omega

/-- After the launch the output array holds the three layers applied to every row of the input array, whatever the
    arrays held when the launch began. -/
theorem final (c : Dev nD) : (dat1 V c).arrAt 7 cfg1.N
    = mlpB (V c main_arg0) (V c main_v7) (V c main_v10) (V c main_v8) (V c main_v11) (V c main_v9) (V c main_v12) :=
  (dat1 V c).arrAt_eq_of_cover 7 _ (fun t _ => flushed_eq V c t) cover

end Cert.KernelIdeal.KMlp1

end
-- ==== Proof.KMlp2.lean ====
/-
  The third of the three row-wise launches, read as one function of the arrays it finds.

  Each of its 8 grid points loads 512 rows of the input and the whole of the three weight matrices and bias rows,
  and stores the three dense layers (a rectifier after the first two) of those rows.  Entry (p, q) of a stored block
  depends on row p of the block alone, so block t is rows 512·t … 512·t + 511 of the three layers applied to every
  row of the input; the blocks tile the output array, which therefore ends holding that function.
-/
import proofs.«107034_j21887153340754_1_alg».proof.Proof.Gen.KernelIdeal.Frame
import proofs.«107034_j21887153340754_1_alg».proof.Proof.KBlock
import Idealize.ShloMosaic.Lib.Pipeline.Value
import Idealize.ShloMosaic.Lib.ValueLayout

set_option maxRecDepth 16384

noncomputable section

open scoped BigOperators

namespace Cert.KernelIdeal.KMlp2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.RowDot Cert.Dense Cert.Spec Cert.KBlock

/-! The third launch: 8 grid points, each taking a block of 512 rows of the input through the three dense layers. -/

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of what the body stores: the three layers applied to row p of the block of rows it loaded. -/
theorem pay_apply (v0 : Vec Ideal S512x1000 .f32) (v2 : Vec Ideal S1000x2048 .bf16) (v5 : Vec Ideal S1x2048 .f32)
    (v12 : Vec Ideal S2048x1024 .bf16) (v15 : Vec Ideal S1x1024 .f32) (v22 : Vec Ideal S1024x512 .bf16)
    (v25 : Vec Ideal S1x512 .f32) (p q : Fin 512) :
    k2_pay1 (F := Ideal) v0 v2 v5 v12 v15 v22 v25 (ix2 p q)
      = mlpRowF v2 (biasRow v5) v12 (biasRow v15) v22 (biasRow v25) (rowOf v0 p) q := by
  unfold k2_pay1 mlpRowF
  refine (dense_block_apply (M := 512) (K := 1024) (N := 512) none _ v22 v25 _ _ _ p q).trans ?_
  refine congrArg (fun r => dense v22 (biasRow v25) r q) (funext fun k => ?_)
  refine (relu_dense_block_apply (M := 512) (K := 2048) (N := 1024) none _ v12 v15 _ _ _ _ p k).trans ?_
  refine congrArg (fun r => relu (dense v12 (biasRow v15) r) k) (funext fun k' => ?_)
  exact relu_dense_block_apply (M := 512) (K := 1000) (N := 2048) none _ v2 v5 _ _ _ _ p k'

/-- The block indices over the grid: point t takes rows 512·t … 512·t + 511 of the input and of the output, and the
    whole of each weight and bias array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem blk1 (c : Dev nD) (t : Fin cfg2.N) : iblk2 V c 1 t = (V c main_v14 : S1000x2048.Idx → Elt Ideal .bf16) := by
  obtain ⟨-, -, e0, e1, -⟩ := idx_facts t
  funext y
  show (V c main_v14 : S1000x2048.Idx → Elt Ideal .bf16) (((cfg2.win 1).blk t).view.emb y) = V c main_v14 y
  refine congrArg _ (funext fun a => Fin.ext ?_)
  match a with
  | ⟨0, _⟩ => show win2_1.index t (0 : Fin 2) * 1000 + 1 * (y 0).val = (y 0).val; omega
  | ⟨1, _⟩ => show win2_1.index t (1 : Fin 2) * 2048 + 1 * (y 1).val = (y 1).val; omega

theorem blk2 (c : Dev nD) (t : Fin cfg2.N) : iblk2 V c 2 t = (V c main_v17 : S1x2048.Idx → Elt Ideal .f32) := by
  obtain ⟨-, -, -, -, e0, e1, -⟩ := idx_facts t
  funext y
  show (V c main_v17 : S1x2048.Idx → Elt Ideal .f32) (((cfg2.win 2).blk t).view.emb y) = V c main_v17 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 2048 + 1 * (y 1).val = (y 1).val; omega

theorem blk3 (c : Dev nD) (t : Fin cfg2.N) : iblk2 V c 3 t = (V c main_v15 : S2048x1024.Idx → Elt Ideal .bf16) := by
  obtain ⟨-, -, -, -, -, -, e0, e1, -⟩ := idx_facts t
  funext y
  show (V c main_v15 : S2048x1024.Idx → Elt Ideal .bf16) (((cfg2.win 3).blk t).view.emb y) = V c main_v15 y
  refine congrArg _ (funext fun a => Fin.ext ?_)
  match a with
  | ⟨0, _⟩ => show win2_3.index t (0 : Fin 2) * 2048 + 1 * (y 0).val = (y 0).val; omega
  | ⟨1, _⟩ => show win2_3.index t (1 : Fin 2) * 1024 + 1 * (y 1).val = (y 1).val; omega

theorem blk4 (c : Dev nD) (t : Fin cfg2.N) : iblk2 V c 4 t = (V c main_v18 : S1x1024.Idx → Elt Ideal .f32) := by
  obtain ⟨-, -, -, -, -, -, -, -, e0, e1, -⟩ := idx_facts t
  funext y
  show (V c main_v18 : S1x1024.Idx → Elt Ideal .f32) (((cfg2.win 4).blk t).view.emb y) = V c main_v18 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 1024 + 1 * (y 1).val = (y 1).val; omega

theorem blk5 (c : Dev nD) (t : Fin cfg2.N) : iblk2 V c 5 t = (V c main_v16 : S1024x512.Idx → Elt Ideal .bf16) := by
  obtain ⟨-, -, -, -, -, -, -, -, -, -, e0, e1, -⟩ := idx_facts t
  funext y
  show (V c main_v16 : S1024x512.Idx → Elt Ideal .bf16) (((cfg2.win 5).blk t).view.emb y) = V c main_v16 y
  refine congrArg _ (funext fun a => Fin.ext ?_)
  match a with
  | ⟨0, _⟩ => show win2_5.index t (0 : Fin 2) * 1024 + 1 * (y 0).val = (y 0).val; omega
  | ⟨1, _⟩ => show win2_5.index t (1 : Fin 2) * 512 + 1 * (y 1).val = (y 1).val; omega

theorem blk6 (c : Dev nD) (t : Fin cfg2.N) : iblk2 V c 6 t = (V c main_v19 : S1x512.Idx → Elt Ideal .f32) := by
  obtain ⟨-, -, -, -, -, -, -, -, -, -, -, -, e0, e1, -⟩ := idx_facts t
  funext y
  show (V c main_v19 : S1x512.Idx → Elt Ideal .f32) (((cfg2.win 6).blk t).view.emb y) = V c main_v19 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 512 + 1 * (y 1).val = (y 1).val; omega

/-- Row p of point t's input block is row 512·t + p of the array. -/
theorem blk0_row (c : Dev nD) (t : Fin cfg2.N) (p : Fin 512) (r : Fin 4096) (hr : r.val = t.val * 512 + p.val) :
    rowOf (iblk2 V c 0 t) p = rowOf (V c main_arg0 : S4096x1000.Idx → Elt Ideal .f32) r := by
  obtain ⟨e0, e1, -⟩ := idx_facts t
  funext k
  show (V c main_arg0 : S4096x1000.Idx → Elt Ideal .f32) (((cfg2.win 0).blk t).view.emb (ix2 p k)) = V c main_arg0 (ix2 r k)
  refine congrArg _ (funext fun a => Fin.ext ?_)
  match a with
  | ⟨0, _⟩ => show win2_0.index t (0 : Fin 2) * 512 + 1 * p.val = r.val; omega
  | ⟨1, _⟩ => show win2_0.index t (1 : Fin 2) * 1000 + 1 * k.val = k.val; omega

/-- What point t writes back is its block of rows of the three layers applied to every row of the input array. -/
theorem flushed_eq (c : Dev nD) (t : Fin cfg2.N) :
    (dat2 V c).flushed 7 t = ((cfg2.win 7).blk t).view.read (Elt Ideal)
      (mlpB (V c main_arg0) (V c main_v14) (V c main_v17) (V c main_v15) (V c main_v18) (V c main_v16) (V c main_v19)) := by
  show (cfg2.win 7).cut (grid2.coords t) ((dat2 V c).after 7 t) = _
  rw [after2_7]
  unfold out2_7
  rw [View.canon_unit_zero hz]
  simp only [View.ld_unit_zero (S := S512x1000) hz, View.ld_unit_zero (S := S1000x2048) hz, View.ld_unit_zero (S := S1x2048) hz,
    View.ld_unit_zero (S := S2048x1024) hz, View.ld_unit_zero (S := S1x1024) hz, View.ld_unit_zero (S := S1024x512) hz,
    View.ld_unit_zero (S := S1x512) hz]
  rw [blk1 V c t, blk2 V c t, blk3 V c t, blk4 V c t, blk5 V c t, blk6 V c t]
  have ht : t.val < 8 := lt_of_lt_of_eq t.isLt (show cfg2.N = 8 from N_2)
  obtain ⟨-, -, -, -, -, -, -, -, -, -, -, -, -, -, e0, e1⟩ := idx_facts t
  funext y
  obtain ⟨p, q, rfl⟩ : ∃ (p : Fin 512) (q : Fin 512), y = ix2 p q := ⟨y 0, y 1, eq_ix2 y⟩
  refine (pay_apply _ _ _ _ _ _ _ p q).trans ?_
  rw [blk0_row V c t p ⟨t.val * 512 + p.val, by have := p.isLt; omega⟩ rfl]
  show _ = mlpB (V c main_arg0) (V c main_v14) (V c main_v17) (V c main_v15) (V c main_v18) (V c main_v16) (V c main_v19)
    (((cfg2.win 7).blk t).view.emb (ix2 p q))
  have he : ((cfg2.win 7).blk t).view.emb (ix2 p q)
      = (ix2 (⟨t.val * 512 + p.val, by have := p.isLt; omega⟩ : Fin 4096) q : S4096x512.Idx) :=
    funext fun a => Fin.ext (by
      match a with
      | ⟨0, _⟩ => show win2_7.index t (0 : Fin 2) * 512 + 1 * p.val = t.val * 512 + p.val; omega
      | ⟨1, _⟩ => show win2_7.index t (1 : Fin 2) * 512 + 1 * q.val = q.val; omega)
  rw [he]
  rfl

theorem mem_blk (t : Fin cfg2.N) (i : S4096x512.Idx) :
    i ∈ ((cfg2.win 7).blk t).view.set ↔ ∀ a : Fin 2, win2_7.index t a * S512x512.size a ≤ (i a).val
      ∧ (i a).val < win2_7.index t a * S512x512.size a + S512x512.size a := by
  show i ∈ ((View.whole main_v20).slice (win2_7.rect t)).set ↔ _
  rw [View.set_slice_whole, Rect.mem_set_unit]
  exact Iff.rfl

/-- Row r of the output lies in the block of point r / 512. -/
theorem cover (i : S4096x512.Idx) :
    ∃ t : Fin cfg2.N, (cfg2.win 7).flush t = true ∧ i ∈ ((cfg2.win 7).blk t).view.set := by
  have hi0 : (i 0).val < 4096 := (i 0).isLt
  have hi1 : (i 1).val < 512 := (i 1).isLt
  let t : Fin cfg2.N := ⟨(i 0).val / 512, by rw [show cfg2.N = 8 from N_2]; omega⟩
  refine ⟨t, flush2_7 t, ?_⟩
  rw [mem_blk]
  obtain ⟨-, -, -, -, -, -, -, -, -, -, -, -, -, -, e0, e1⟩ := idx_facts t
  have htv : t.val = (i 0).val / 512 := rfl
  intro a
  match a with
  | ⟨0, _⟩ => show win2_7.index t (0 : Fin 2) * 512 ≤ (i 0).val ∧ (i 0).val < win2_7.index t (0 : Fin 2) * 512 + 512; omega
  | ⟨1, _⟩ => show win2_7.index t (1 : Fin 2) * 512 ≤ (i 1).val ∧ (i 1).val < win2_7.index t (1 : Fin 2) * 512 + 512; omega

/-- After the launch the output array holds the three layers applied to every row of the input array, whatever the
    arrays held when the launch began. -/
theorem final (c : Dev nD) : (dat2 V c).arrAt 7 cfg2.N
    = mlpB (V c main_arg0) (V c main_v14) (V c main_v17) (V c main_v15) (V c main_v18) (V c main_v16) (V c main_v19) :=
  (dat2 V c).arrAt_eq_of_cover 7 _ (fun t _ => flushed_eq V c t) cover

end Cert.KernelIdeal.KMlp2

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.KAttn.lean ====
/-
  The attention launch, read as one function of the arrays it finds.

  Each of its 64 grid points takes one head h and one block of 512 rows: it loads those rows of the first array's
  head and the whole head of the second and third arrays, and stores the rectified-score weights of those rows
  applied to the third.  A score is the product over the 64 entries of the rectified rows, times a constant; a row's
  weights are its scores over their sum plus a small constant.  Entry (p, d) of a stored block depends on row p of
  the first block alone, so the block of point (h, i) is rows 512·i … 512·i + 511 of head h of the attention of the
  three arrays; the blocks tile the output array, which therefore ends holding that function.
-/
import proofs.«107034_j21887153340754_1_alg».proof.Proof.Gen.KernelIdeal.Frame
import proofs.«107034_j21887153340754_1_alg».proof.Proof.KBlock
import proofs.«107034_j21887153340754_1_alg».proof.Proof.LibColumn
import Idealize.ShloMosaic.Lib.Pipeline.Value
import Idealize.ShloMosaic.Lib.ValueLayout

set_option maxRecDepth 16384

noncomputable section

open scoped BigOperators

namespace Cert.KernelIdeal.KAttn

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.RowDot Cert.Dense Cert.Spec Cert.KBlock Cert.Column

/-! The payload: what the body stores, from the three blocks it loaded. -/

/-- The score of row p of the first block and row m of the second: the scaled product of the rectified rows. -/
def bsc (v0 : Vec Ideal S1x512x64 .bf16) (v4 : Vec Ideal S1x4096x64 .bf16) (p : Fin 512) (m : Fin 4096) : EReal :=
  kScale (∑ d : Fin 64, max (v0 (ix3 (0 : Fin 1) p d)) 0 * max (v4 (ix3 (0 : Fin 1) m d)) 0)

/-- Row p's sum of scores plus the small constant. -/
def bden (v0 : Vec Ideal S1x512x64 .bf16) (v4 : Vec Ideal S1x4096x64 .bf16) (p : Fin 512) : EReal :=
  (∑ m : Fin 4096, bsc v0 v4 p m) + eps

/-- The 512×4096 array of scores as the body computes it: the rectified first block times the transposed rectified
    second block, into zero, times the constant. -/
def scoresB (v0 : Vec Ideal S1x512x64 .bf16) (v4 : Vec Ideal S1x4096x64 .bf16) : FVec Ideal S512x4096 .f32 :=
  mulf (matmul dot_S512x64_S64x4096_S512x4096_1_0_0_1_n_n none
      (maximumf (shapeCast S512x64 v0 shapeCasts_S1x512x64_S512x64) (broadcast S512x64 (Scalar.ofBits (F := Ideal) .bf16 0x0000#16)))
      (transpose S64x4096 [1, 0]
        (maximumf (shapeCast S4096x64 v4 shapeCasts_S1x4096x64_S4096x64) (broadcast S4096x64 (Scalar.ofBits (F := Ideal) .bf16 0x0000#16)))
        transposes_S4096x64_p1_0_S64x4096)
      (constant S512x4096 .f32 0x00000000#32))
    (broadcast S512x4096 (Scalar.ofBits (F := Ideal) .f32 0x3E000000#32))

/-- Entry (p, m) of the array of scores is the score of rows p and m. -/
theorem scores_apply (v0 : Vec Ideal S1x512x64 .bf16) (v4 : Vec Ideal S1x4096x64 .bf16) (p : Fin 512) (m : Fin 4096) :
    scoresB v0 v4 (ix2 p m) = bsc v0 v4 p m := by
  unfold scoresB bsc kScale
  refine congrArg (fun x : EReal => x * Ideal.ofBits .f32 0x3E000000#32) ?_
  refine (matmul_plain_zero_apply (M := 512) (K := 64) (N := 4096) none _ _ (ix2 p m)).trans ?_
  unfold rowDot rowOf
  refine Finset.sum_congr rfl fun d _ => ?_
  refine congrArg₂ (fun a b : EReal => a * b) ?_ ?_
  · show max (shapeCast S512x64 v0 shapeCasts_S1x512x64_S512x64 (ix2 p d)) (Ideal.ofBits .bf16 0x0000#16) = _
    rw [shapeCast_1ab_ab_apply, ofBits_zero_bf16]
  · refine (transpose_ix2_apply _ _ d m).trans ?_
    show max (shapeCast S4096x64 v4 shapeCasts_S1x4096x64_S4096x64 (ix2 m d)) (Ideal.ofBits .bf16 0x0000#16) = _
    rw [shapeCast_1ab_ab_apply, ofBits_zero_bf16]

/-- The sum along a row of a 512×4096 array, as the body's reduction from the zero word computes it. -/
theorem rowSum_apply (src : FVec Ideal S512x4096 .f32) (p : Fin 512) :
    multiReduction .add [1] S512 src 0x00000000#32 reduces_S512x4096_S512 (.inl rfl) rfl (ix1 p)
      = ∑ m : Fin 4096, src (ix2 p m) := by
  refine (Ideal.multiReduction_add_single src 0x00000000#32 reduces_S512x4096_S512 (.inl rfl) rfl (ix1 p)).trans ?_
  refine Finset.sum_congr rfl fun m _ => congrArg src (funext fun a => Fin.ext ?_)
  match a with
  | ⟨0, _⟩ => rfl
  | ⟨1, _⟩ => rfl

/-- The column of denominators as the body computes it: each row's sum of scores, plus the small constant. -/
theorem den_apply (v0 : Vec Ideal S1x512x64 .bf16) (v4 : Vec Ideal S1x4096x64 .bf16) (p : Fin 512) (u : Fin 1) :
    addf (shapeCast S512x1 (multiReduction .add [1] S512 (scoresB v0 v4) 0x00000000#32 reduces_S512x4096_S512 (.inl rfl) rfl)
          shapeCasts_S512_S512x1)
        (broadcast S512x1 (Scalar.ofBits (F := Ideal) .f32 0x322BCC77#32)) (ix2 p u)
      = bden v0 v4 p := by
  unfold bden eps
  refine congrArg (fun x : EReal => x + Ideal.ofBits .f32 0x322BCC77#32) ?_
  refine (shapeCast_a_a1_apply _ _ p u).trans ?_
  refine (rowSum_apply _ p).trans ?_
  exact Finset.sum_congr rfl fun m _ => scores_apply v0 v4 p m

/-- Entry (p, d) of what the body stores: the weights of row p applied to column d of the third block. -/
theorem pay_apply (v0 : Vec Ideal S1x512x64 .bf16) (v4 v8 : Vec Ideal S1x4096x64 .bf16) (p : Fin 512) (d : Fin 64) :
    k3_pay1 (F := Ideal) v0 v4 v8 (ix3 (0 : Fin 1) p d)
      = ∑ m : Fin 4096, Ideal.div (bsc v0 v4 p m) (bden v0 v4 p) * v8 (ix3 (0 : Fin 1) m d) := by
  unfold k3_pay1
  refine (shapeCast_ab_1ab_apply _ _ (0 : Fin 1) p d).trans ?_
  refine (matmul_plain_zero_apply (M := 512) (K := 4096) (N := 64) none _ _ (ix2 p d)).trans ?_
  unfold rowDot rowOf
  refine Finset.sum_congr rfl fun m _ => ?_
  refine congrArg₂ (fun a b : EReal => a * b) ?_ (shapeCast_1ab_ab_apply v8 _ m d)
  show Ideal.div (scoresB v0 v4 (ix2 p m)) (broadcastTo S512x4096 _ broadcasts_S512x1_S512x4096 (ix2 p m)) = _
  refine congrArg₂ Ideal.div (scores_apply v0 v4 p m) ?_
  refine (broadcastTo_a1_ab_apply _ _ p m).trans ?_
  exact den_apply v0 v4 p 0

/-! The launch: 64 grid points, point t taking head t / 8 and the block of rows 512·(t mod 8) … 512·(t mod 8) + 511. -/

variable (V : (c : Dev nD) → (b : Ref sig .tc) → Buf (Elt Ideal) ((c : Thread nD τ).loc b))

theorem hz : (![0, 0, 0] : Fin 3 → Nat) = fun _ => 0 := funext fun a => by fin_cases a <;> rfl

/-- The block indices over the grid: point t takes head t / 8 of every array, row block t mod 8 of the first array and
    of the output, and all the rows of the second and third arrays. -/
theorem idx_facts : ∀ t : Fin cfg3.N,
    win3_0.index t (0 : Fin 3) = t.val / 8 ∧ win3_0.index t (1 : Fin 3) = t.val % 8 ∧ win3_0.index t (2 : Fin 3) = 0
    ∧ win3_1.index t (0 : Fin 3) = t.val / 8 ∧ win3_1.index t (1 : Fin 3) = 0 ∧ win3_1.index t (2 : Fin 3) = 0
    ∧ win3_2.index t (0 : Fin 3) = t.val / 8 ∧ win3_2.index t (1 : Fin 3) = 0 ∧ win3_2.index t (2 : Fin 3) = 0
    ∧ win3_3.index t (0 : Fin 3) = t.val / 8 ∧ win3_3.index t (1 : Fin 3) = t.val % 8 ∧ win3_3.index t (2 : Fin 3) = 0 :=
  (by decide +kernel : ∀ t : Fin grid3.N, _)

/-- Row p of point t's block of the first array is row 512·(t mod 8) + p of head t / 8. -/
theorem blk0_apply (c : Dev nD) (t : Fin cfg3.N) (h : Fin 8) (hh : h.val = t.val / 8) (p : Fin 512) (r : Fin 4096)
    (hr : r.val = t.val % 8 * 512 + p.val) (d : Fin 64) :
    iblk3 V c 0 t (ix3 (0 : Fin 1) p d) = (V c main_v23 : S8x4096x64.Idx → Elt Ideal .bf16) (ix3 h r d) := by
  obtain ⟨e0, e1, e2, -⟩ := idx_facts t
  show (V c main_v23 : S8x4096x64.Idx → Elt Ideal .bf16) (((cfg3.win 0).blk t).view.emb (ix3 (0 : Fin 1) p d)) = _
  refine congrArg _ (funext fun a => Fin.ext ?_)
  match a with
  | ⟨0, _⟩ => show win3_0.index t (0 : Fin 3) * 1 + 1 * 0 = h.val; omega
  | ⟨1, _⟩ => show win3_0.index t (1 : Fin 3) * 512 + 1 * p.val = r.val; omega
  | ⟨2, _⟩ => show win3_0.index t (2 : Fin 3) * 64 + 1 * d.val = d.val; omega

/-- Point t's block of the second array is the whole of head t / 8. -/
theorem blk1_apply (c : Dev nD) (t : Fin cfg3.N) (h : Fin 8) (hh : h.val = t.val / 8) (m : Fin 4096) (d : Fin 64) :
    iblk3 V c 1 t (ix3 (0 : Fin 1) m d) = (V c main_v26 : S8x4096x64.Idx → Elt Ideal .bf16) (ix3 h m d) := by
  obtain ⟨-, -, -, e0, e1, e2, -⟩ := idx_facts t
  show (V c main_v26 : S8x4096x64.Idx → Elt Ideal .bf16) (((cfg3.win 1).blk t).view.emb (ix3 (0 : Fin 1) m d)) = _
  refine congrArg _ (funext fun a => Fin.ext ?_)
  match a with
  | ⟨0, _⟩ => show win3_1.index t (0 : Fin 3) * 1 + 1 * 0 = h.val; omega
  | ⟨1, _⟩ => show win3_1.index t (1 : Fin 3) * 4096 + 1 * m.val = m.val; omega
  | ⟨2, _⟩ => show win3_1.index t (2 : Fin 3) * 64 + 1 * d.val = d.val; omega

/-- Point t's block of the third array is the whole of head t / 8. -/
theorem blk2_apply (c : Dev nD) (t : Fin cfg3.N) (h : Fin 8) (hh : h.val = t.val / 8) (m : Fin 4096) (d : Fin 64) :
    iblk3 V c 2 t (ix3 (0 : Fin 1) m d) = (V c main_v29 : S8x4096x64.Idx → Elt Ideal .bf16) (ix3 h m d) := by
  obtain ⟨-, -, -, -, -, -, e0, e1, e2, -⟩ := idx_facts t
  show (V c main_v29 : S8x4096x64.Idx → Elt Ideal .bf16) (((cfg3.win 2).blk t).view.emb (ix3 (0 : Fin 1) m d)) = _
  refine congrArg _ (funext fun a => Fin.ext ?_)
  match a with
  | ⟨0, _⟩ => show win3_2.index t (0 : Fin 3) * 1 + 1 * 0 = h.val; omega
  | ⟨1, _⟩ => show win3_2.index t (1 : Fin 3) * 4096 + 1 * m.val = m.val; omega
  | ⟨2, _⟩ => show win3_2.index t (2 : Fin 3) * 64 + 1 * d.val = d.val; omega

/-- The scores of point t's blocks are the scores of head t / 8, at the block's rows. -/
theorem bsc_eq (c : Dev nD) (t : Fin cfg3.N) (h : Fin 8) (hh : h.val = t.val / 8) (p : Fin 512) (r : Fin 4096)
    (hr : r.val = t.val % 8 * 512 + p.val) (m : Fin 4096) :
    bsc (iblk3 V c 0 t) (iblk3 V c 1 t) p m = score kScale (V c main_v23) (V c main_v26) h r m := by
  unfold bsc score
  refine congrArg kScale (Finset.sum_congr rfl fun d _ => ?_)
  exact congrArg₂ (fun a b : EReal => max a 0 * max b 0) (blk0_apply V c t h hh p r hr d) (blk1_apply V c t h hh m d)

/-- So are the denominators. -/
theorem bden_eq (c : Dev nD) (t : Fin cfg3.N) (h : Fin 8) (hh : h.val = t.val / 8) (p : Fin 512) (r : Fin 4096)
    (hr : r.val = t.val % 8 * 512 + p.val) :
    bden (iblk3 V c 0 t) (iblk3 V c 1 t) p = denom kScale (V c main_v23) (V c main_v26) h r := by
  unfold bden denom
  exact congrArg (fun x : EReal => x + eps) (Finset.sum_congr rfl fun m _ => bsc_eq V c t h hh p r hr m)

/-- What point t writes back is its block of the attention of the three arrays. -/
theorem flushed_eq (c : Dev nD) (t : Fin cfg3.N) :
    (dat3 V c).flushed 3 t = ((cfg3.win 3).blk t).view.read (Elt Ideal)
      (attn kScale (V c main_v23) (V c main_v26) (V c main_v29)) := by
  show (cfg3.win 3).cut (grid3.coords t) ((dat3 V c).after 3 t) = _
  rw [after3_3]
  unfold out3_3
  rw [View.canon_unit_zero hz]
  simp only [View.ld_unit_zero (S := S1x512x64) hz, View.ld_unit_zero (S := S1x4096x64) hz]
  have ht : t.val < 64 := lt_of_lt_of_eq t.isLt (show cfg3.N = 64 from N_3)
  obtain ⟨-, -, -, -, -, -, -, -, -, e0, e1, e2⟩ := idx_facts t
  funext y
  obtain ⟨u, p, d, rfl⟩ : ∃ (u : Fin 1) (p : Fin 512) (d : Fin 64), y = ix3 u p d := ⟨y 0, y 1, y 2, eq_ix3 y⟩
  have hu : u = 0 := Fin.ext (by omega)
  subst hu
  refine (pay_apply _ _ _ p d).trans ?_
  have hlt : t.val / 8 < 8 := by omega
  have hrl : t.val % 8 * 512 + p.val < 4096 := by have := p.isLt; omega
  show _ = attn kScale (V c main_v23) (V c main_v26) (V c main_v29) (((cfg3.win 3).blk t).view.emb (ix3 (0 : Fin 1) p d))
  have he : ((cfg3.win 3).blk t).view.emb (ix3 (0 : Fin 1) p d)
      = (ix3 (⟨t.val / 8, hlt⟩ : Fin 8) (⟨t.val % 8 * 512 + p.val, hrl⟩ : Fin 4096) d : S8x4096x64.Idx) :=
    funext fun a => Fin.ext (by
      match a with
      | ⟨0, _⟩ => show win3_3.index t (0 : Fin 3) * 1 + 1 * 0 = t.val / 8; omega
      | ⟨1, _⟩ => show win3_3.index t (1 : Fin 3) * 512 + 1 * p.val = t.val % 8 * 512 + p.val; omega
      | ⟨2, _⟩ => show win3_3.index t (2 : Fin 3) * 64 + 1 * d.val = d.val; omega)
  rw [he]
  unfold attn
  refine Finset.sum_congr rfl fun m _ => ?_
  exact congrArg₂ (fun a b : EReal => a * b)
    (congrArg₂ Ideal.div (bsc_eq V c t ⟨t.val / 8, hlt⟩ rfl p ⟨t.val % 8 * 512 + p.val, hrl⟩ rfl m)
      (bden_eq V c t ⟨t.val / 8, hlt⟩ rfl p ⟨t.val % 8 * 512 + p.val, hrl⟩ rfl))
    (blk2_apply V c t ⟨t.val / 8, hlt⟩ rfl m d)

theorem mem_blk (t : Fin cfg3.N) (i : S8x4096x64.Idx) :
    i ∈ ((cfg3.win 3).blk t).view.set ↔ ∀ a : Fin 3, win3_3.index t a * S1x512x64.size a ≤ (i a).val
      ∧ (i a).val < win3_3.index t a * S1x512x64.size a + S1x512x64.size a := by
  show i ∈ ((View.whole main_v30).slice (win3_3.rect t)).set ↔ _
  rw [View.set_slice_whole, Rect.mem_set_unit]
  exact Iff.rfl

/-- Entry (h, n, d) of the output lies in the block of point 8·h + n / 512. -/
theorem cover (i : S8x4096x64.Idx) :
    ∃ t : Fin cfg3.N, (cfg3.win 3).flush t = true ∧ i ∈ ((cfg3.win 3).blk t).view.set := by
  have hi0 : (i 0).val < 8 := (i 0).isLt
  have hi1 : (i 1).val < 4096 := (i 1).isLt
  have hi2 : (i 2).val < 64 := (i 2).isLt
  let t : Fin cfg3.N := ⟨(i 0).val * 8 + (i 1).val / 512, by rw [show cfg3.N = 64 from N_3]; omega⟩
  refine ⟨t, flush3_3 t, ?_⟩
  rw [mem_blk]
  obtain ⟨-, -, -, -, -, -, -, -, -, e0, e1, e2⟩ := idx_facts t
  have htv : t.val = (i 0).val * 8 + (i 1).val / 512 := rfl
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 512 ≤ (i 1).val ∧ (i 1).val < win3_3.index t (1 : Fin 3) * 512 + 512; omega
  | ⟨2, _⟩ => show win3_3.index t (2 : Fin 3) * 64 ≤ (i 2).val ∧ (i 2).val < win3_3.index t (2 : Fin 3) * 64 + 64; omega

/-- After the launch the output array holds the attention of the three arrays it found, whatever they held. -/
theorem final (c : Dev nD) : (dat3 V c).arrAt 3 cfg3.N
    = attn kScale (V c main_v23) (V c main_v26) (V c main_v29) :=
  (dat3 V c).arrAt_eq_of_cover 3 _ (fun t _ => flushed_eq V c t) cover

end Cert.KernelIdeal.KAttn

end
-- ==== Proof.KOut.lean ====
/-
  The last launch, read as one function of the arrays it finds.

  Each of its 8 grid points loads 512 rows of the 4096×512 input and the whole weight matrix and bias row, and stores
  the dense map of those rows.  Entry (p, q) of a stored block depends on row p of the block alone, so block t is rows
  512·t … 512·t + 511 of the dense map applied to every row of the input; the blocks tile the output array.
-/
import proofs.«107034_j21887153340754_1_alg».proof.Proof.Gen.KernelIdeal.Frame
import proofs.«107034_j21887153340754_1_alg».proof.Proof.KBlock
import Idealize.ShloMosaic.Lib.Pipeline.Value
import Idealize.ShloMosaic.Lib.ValueLayout

set_option maxRecDepth 16384

noncomputable section

open scoped BigOperators

namespace Cert.KernelIdeal.KOut

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.RowDot Cert.Dense Cert.Spec Cert.KBlock

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of what the body stores: the dense map applied to row p of the block of rows it loaded. -/
theorem pay_apply (v0 : Vec Ideal S512x512 .bf16) (v2 : Vec Ideal S512x1000 .bf16) (v5 : Vec Ideal S1x1000 .f32)
    (p : Fin 512) (q : Fin 1000) :
    k4_pay1 (F := Ideal) v0 v2 v5 (ix2 p q) = dense v2 (biasRow v5) (rowOf v0 p) q := by
  unfold k4_pay1
  refine (dense_block_apply (M := 512) (K := 512) (N := 1000) none _ v2 v5 _ _ _ p q).trans ?_
  refine congrArg (fun r => dense v2 (biasRow v5) r q) (funext fun k => ?_)
  show shapeCast S512x512 v0 shapeCasts_S512x512_S512x512 (ix2 p k) = v0 (ix2 p k)
  rw [shapeCast_self]

/-- The block indices over the grid: point t takes rows 512·t … 512·t + 511 of the input and of the output, and the
    whole of the weight and bias arrays. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem blk1 (c : Dev nD) (t : Fin cfg4.N) : iblk4 V c 1 t = (V c main_v33 : S512x1000.Idx → Elt Ideal .bf16) := by
  obtain ⟨-, -, e0, e1, -⟩ := idx_facts t
  funext y
  show (V c main_v33 : S512x1000.Idx → Elt Ideal .bf16) (((cfg4.win 1).blk t).view.emb y) = V c main_v33 y
  refine congrArg _ (funext fun a => Fin.ext ?_)
  match a with
  | ⟨0, _⟩ => show win4_1.index t (0 : Fin 2) * 512 + 1 * (y 0).val = (y 0).val; omega
  | ⟨1, _⟩ => show win4_1.index t (1 : Fin 2) * 1000 + 1 * (y 1).val = (y 1).val; omega

theorem blk2 (c : Dev nD) (t : Fin cfg4.N) : iblk4 V c 2 t = (V c main_v34 : S1x1000.Idx → Elt Ideal .f32) := by
  obtain ⟨-, -, -, -, e0, e1, -⟩ := idx_facts t
  funext y
  show (V c main_v34 : S1x1000.Idx → Elt Ideal .f32) (((cfg4.win 2).blk t).view.emb y) = V c main_v34 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 1000 + 1 * (y 1).val = (y 1).val; omega

/-- Row p of point t's input block is row 512·t + p of the array. -/
theorem blk0_row (c : Dev nD) (t : Fin cfg4.N) (p : Fin 512) (r : Fin 4096) (hr : r.val = t.val * 512 + p.val) :
    rowOf (iblk4 V c 0 t) p = rowOf (V c main_v32 : S4096x512.Idx → Elt Ideal .bf16) r := by
  obtain ⟨e0, e1, -⟩ := idx_facts t
  funext k
  show (V c main_v32 : S4096x512.Idx → Elt Ideal .bf16) (((cfg4.win 0).blk t).view.emb (ix2 p k)) = V c main_v32 (ix2 r k)
  refine congrArg _ (funext fun a => Fin.ext ?_)
  match a with
  | ⟨0, _⟩ => show win4_0.index t (0 : Fin 2) * 512 + 1 * p.val = r.val; omega
  | ⟨1, _⟩ => show win4_0.index t (1 : Fin 2) * 512 + 1 * k.val = k.val; omega

/-- What point t writes back is its block of rows of the dense map applied to every row of the input array. -/
theorem flushed_eq (c : Dev nD) (t : Fin cfg4.N) :
    (dat4 V c).flushed 3 t = ((cfg4.win 3).blk t).view.read (Elt Ideal)
      (outB (V c main_v32) (V c main_v33) (V c main_v34)) := by
  show (cfg4.win 3).cut (grid4.coords t) ((dat4 V c).after 3 t) = _
  rw [after4_3]
  unfold out4_3
  rw [View.canon_unit_zero hz]
  simp only [View.ld_unit_zero (S := S512x512) hz, View.ld_unit_zero (S := S512x1000) hz, View.ld_unit_zero (S := S1x1000) hz]
  rw [blk1 V c t, blk2 V c t]
  have ht : t.val < 8 := lt_of_lt_of_eq t.isLt (show cfg4.N = 8 from N_4)
  obtain ⟨-, -, -, -, -, -, e0, e1⟩ := idx_facts t
  funext y
  obtain ⟨p, q, rfl⟩ : ∃ (p : Fin 512) (q : Fin 1000), y = ix2 p q := ⟨y 0, y 1, eq_ix2 y⟩
  refine (pay_apply _ _ _ p q).trans ?_
  rw [blk0_row V c t p ⟨t.val * 512 + p.val, by have := p.isLt; omega⟩ rfl]
  show _ = outB (V c main_v32) (V c main_v33) (V c main_v34) (((cfg4.win 3).blk t).view.emb (ix2 p q))
  have he : ((cfg4.win 3).blk t).view.emb (ix2 p q)
      = (ix2 (⟨t.val * 512 + p.val, by have := p.isLt; omega⟩ : Fin 4096) q : S4096x1000.Idx) :=
    funext fun a => Fin.ext (by
      match a with
      | ⟨0, _⟩ => show win4_3.index t (0 : Fin 2) * 512 + 1 * p.val = t.val * 512 + p.val; omega
      | ⟨1, _⟩ => show win4_3.index t (1 : Fin 2) * 1000 + 1 * q.val = q.val; omega)
  rw [he]
  rfl

theorem mem_blk (t : Fin cfg4.N) (i : S4096x1000.Idx) :
    i ∈ ((cfg4.win 3).blk t).view.set ↔ ∀ a : Fin 2, win4_3.index t a * S512x1000.size a ≤ (i a).val
      ∧ (i a).val < win4_3.index t a * S512x1000.size a + S512x1000.size a := by
  show i ∈ ((View.whole main_v35).slice (win4_3.rect t)).set ↔ _
  rw [View.set_slice_whole, Rect.mem_set_unit]
  exact Iff.rfl

/-- Row r of the output lies in the block of point r / 512. -/
theorem cover (i : S4096x1000.Idx) :
    ∃ t : Fin cfg4.N, (cfg4.win 3).flush t = true ∧ i ∈ ((cfg4.win 3).blk t).view.set := by
  have hi0 : (i 0).val < 4096 := (i 0).isLt
  have hi1 : (i 1).val < 1000 := (i 1).isLt
  let t : Fin cfg4.N := ⟨(i 0).val / 512, by rw [show cfg4.N = 8 from N_4]; omega⟩
  refine ⟨t, flush4_3 t, ?_⟩
  rw [mem_blk]
  obtain ⟨-, -, -, -, -, -, e0, e1⟩ := idx_facts t
  have htv : t.val = (i 0).val / 512 := rfl
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1000 ≤ (i 1).val ∧ (i 1).val < win4_3.index t (1 : Fin 2) * 1000 + 1000; omega

/-- After the launch the output array holds the dense map applied to every row of the input array, whatever the
    arrays held when the launch began. -/
theorem final (c : Dev nD) : (dat4 V c).arrAt 3 cfg4.N = outB (V c main_v32) (V c main_v33) (V c main_v34) :=
  (dat4 V c).arrAt_eq_of_cover 3 _ (fun t _ => flushed_eq V c t) cover

end Cert.KernelIdeal.KOut

end
-- ==== Proof.KCast.lean ====
/-
  Biases kept as rows.

  The kernel programs keep each bias of N numbers as a 1×N array; as a function of the column it is the same bias,
  so the layers written over 1×N biases are the layers written over length-N biases.
-/
import proofs.«107034_j21887153340754_1_alg».proof.Proof.KBlock

noncomputable section

namespace Cert.KBlock

open Idealize.ShloMosaic Idealize.ShloMosaic.ValueIdx Cert.RowDot Cert.Dense Cert.Spec

/-- The three layers over biases recast as 1×N arrays are the three layers over the biases. -/
theorem mlpB_cast (x : T2 4096 1000) (W1 : T2 1000 2048) (b1 : T1 2048) (W2 : T2 2048 1024) (b2 : T1 1024)
    (W3 : T2 1024 512) (b3 : T1 512) (h1 : (⟨1, ![2048]⟩ : Shape).ShapeCasts ⟨2, ![1, 2048]⟩)
    (h2 : (⟨1, ![1024]⟩ : Shape).ShapeCasts ⟨2, ![1, 1024]⟩) (h3 : (⟨1, ![512]⟩ : Shape).ShapeCasts ⟨2, ![1, 512]⟩) :
    mlpB x W1 (shapeCast ⟨2, ![1, 2048]⟩ b1 h1) W2 (shapeCast ⟨2, ![1, 1024]⟩ b2 h2) W3 (shapeCast ⟨2, ![1, 512]⟩ b3 h3)
      = mlp x W1 b1 W2 b2 W3 b3 := by
  unfold mlpB mlp
  rw [biasRow_shapeCast, biasRow_shapeCast, biasRow_shapeCast, mlpRow_eq]

/-- The dense map over a bias recast as a 1×N array is the dense map over the bias. -/
theorem outB_cast (a : T2 4096 512) (W : T2 512 1000) (b : T1 1000) (h : (⟨1, ![1000]⟩ : Shape).ShapeCasts ⟨2, ![1, 1000]⟩) :
    outB a W (shapeCast ⟨2, ![1, 1000]⟩ b h) = outProj a W b := by
  unfold outB outProj
  rw [biasRow_shapeCast]

/-- The three layers of equal arrays are equal. -/
theorem mlpB_congr {x x' : T2 4096 1000} {W1 W1' : T2 1000 2048} {b1 b1' : T2 1 2048} {W2 W2' : T2 2048 1024}
    {b2 b2' : T2 1 1024} {W3 W3' : T2 1024 512} {b3 b3' : T2 1 512} (hx : x = x') (h1 : W1 = W1') (g1 : b1 = b1')
    (h2 : W2 = W2') (g2 : b2 = b2') (h3 : W3 = W3') (g3 : b3 = b3') :
    mlpB x W1 b1 W2 b2 W3 b3 = mlpB x' W1' b1' W2' b2' W3' b3' := by
  subst hx h1 g1 h2 g2 h3 g3; rfl

/-- The dense map of equal arrays is equal. -/
theorem outB_congr {a a' : T2 4096 512} {W W' : T2 512 1000} {b b' : T2 1 1000} (ha : a = a') (hW : W = W') (hb : b = b') :
    outB a W b = outB a' W' b' := by
  subst ha hW hb; rfl

/-- The heads' outputs of equal arrays are equal. -/
theorem attn_congr (sc : EReal → EReal) {q q' k k' v v' : T3 8 4096 64} (hq : q = q') (hk : k = k') (hv : v = v') :
    attn sc q k v = attn sc q' k' v' := by
  subst hq hk hv; rfl

end Cert.KBlock

end
-- ==== Proof.KValue.lean ====
/-
  The idealized kernel's result as one function of the argument arrays.

  Each launch's output array ends holding a function of what the launch found in its operand arrays; the operand
  arrays hold the arguments, or earlier launches' outputs, re-laid by the host operations.  Composing the five
  launches: the result array ends holding the dense map of the side-by-side heads' outputs of the three
  projections of the input, the scores scaled by 1/8.
-/
import proofs.«107034_j21887153340754_1_alg».proof.Proof.Gen.KernelIdeal.Frame
import proofs.«107034_j21887153340754_1_alg».proof.Proof.KEntry
import proofs.«107034_j21887153340754_1_alg».proof.Proof.KMlp0
import proofs.«107034_j21887153340754_1_alg».proof.Proof.KMlp1
import proofs.«107034_j21887153340754_1_alg».proof.Proof.KMlp2
import proofs.«107034_j21887153340754_1_alg».proof.Proof.KAttn
import proofs.«107034_j21887153340754_1_alg».proof.Proof.KOut
import proofs.«107034_j21887153340754_1_alg».proof.Proof.KCast
import Idealize.ShloMosaic.Lib.ValueIdx
import Idealize.ShloMosaic.Lib.StableHlo.Run
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- A stretch of host operations leaves a buffer none of them writes as it was. -/
macro "keep_host " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

open Cert.Spec Cert.KBlock

/-- After the first launch its output array holds the three layers applied to every row of the input argument. -/
theorem q_val (c : Dev nD) : @Eq (T2 4096 512) (W2 m ρ c (Proc.devRef .tc main_v6))
    (mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W2_arr m ρ c 7).trans ((KMlp0.final (V1 m ρ) c).trans
    ((mlpB_congr (KWalk.x_at1 m ρ c) (KEntry.e0_w1 m ρ c) (KEntry.e0_b1 m ρ c) (KEntry.e0_w2 m ρ c)
      (KEntry.e0_b2 m ρ c) (KEntry.e0_w3 m ρ c) (KEntry.e0_b3 m ρ c)).trans
      (mlpB_cast _ _ _ _ _ _ _ shapeCasts_S2048_S1x2048 shapeCasts_S1024_S1x1024 shapeCasts_S512_S1x512)))

/-- After the second launch its output array holds the three layers applied to every row of the input argument. -/
theorem k_val (c : Dev nD) : @Eq (T2 4096 512) (W4 m ρ c (Proc.devRef .tc main_v13))
    (mlp (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (W4_arr m ρ c 7).trans ((KMlp1.final (V3 m ρ) c).trans
    ((mlpB_congr (KWalk.x_at3 m ρ c) (KEntry.e1_w1 m ρ c) (KEntry.e1_b1 m ρ c) (KEntry.e1_w2 m ρ c)
      (KEntry.e1_b2 m ρ c) (KEntry.e1_w3 m ρ c) (KEntry.e1_b3 m ρ c)).trans
      (mlpB_cast _ _ _ _ _ _ _ shapeCasts_S2048_S1x2048 shapeCasts_S1024_S1x1024 shapeCasts_S512_S1x512)))

/-- After the third launch its output array holds the three layers applied to every row of the input argument. -/
theorem v_val (c : Dev nD) : @Eq (T2 4096 512) (W6 m ρ c (Proc.devRef .tc main_v20))
    (mlp (m ((c : Thread nD τ).loc main_arg0)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) :=
  (W6_arr m ρ c 7).trans ((KMlp2.final (V5 m ρ) c).trans
    ((mlpB_congr (KWalk.x_at5 m ρ c) (KEntry.e2_w1 m ρ c) (KEntry.e2_b1 m ρ c) (KEntry.e2_w2 m ρ c)
      (KEntry.e2_b2 m ρ c) (KEntry.e2_w3 m ρ c) (KEntry.e2_b3 m ρ c)).trans
      (mlpB_cast _ _ _ _ _ _ _ shapeCasts_S2048_S1x2048 shapeCasts_S1024_S1x1024 shapeCasts_S512_S1x512)))

/-- After the fourth launch its output array holds the heads' outputs of the three projections. -/
theorem a_val (c : Dev nD) : @Eq (T3 8 4096 64) (W8 m ρ c (Proc.devRef .tc main_v30))
    (attn kScale (heads (mlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))))
      (heads (mlp (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))))
      (heads (mlp (m ((c : Thread nD τ).loc main_arg0)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))))) :=
  (W8_arr m ρ c 3).trans ((KAttn.final (V7 m ρ) c).trans
    (attn_congr kScale ((KEntry.e3_q m ρ c).trans (congrArg heads (q_val m ρ c)))
      ((KEntry.e3_k m ρ c).trans (congrArg heads (k_val m ρ c)))
      ((KEntry.e3_v m ρ c).trans (congrArg heads (v_val m ρ c)))))

/-- After the last launch the result array holds the whole function of the 21 argument arrays. -/
theorem out_val (c : Dev nD) : @Eq (T2 4096 1000) (W10 m ρ c (Proc.devRef .tc main_v35))
    (G kScale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :=
  (W10_arr m ρ c 3).trans ((KOut.final (V9 m ρ) c).trans
    ((outB_congr ((KEntry.e4_a m ρ c).trans (congrArg flat (a_val m ρ c))) (KEntry.e4_w m ρ c) (KEntry.e4_b m ρ c)).trans
      (outB_cast _ _ _ shapeCasts_S1000_S1x1000)))

end Cert.KernelIdeal.KValue

end
-- ==== Proof.RefMlp.lean ====
/-
  The reference program's three projections, read as the specification's row-wise map.

  Each projection is three dense layers on every row of the batch, a rectifier after the first two: a product with
  a weight matrix, plus the bias spread over the rows, and the maximum with zero.  Entry (p, q) of a layer's result
  depends on row p of its operand alone, so the whole chain at (p, q) is the chain applied to row p, at q.
-/
import proofs.«107034_j21887153340754_1_alg».proof.Proof.Gen.ReferenceIdeal.Read
import proofs.«107034_j21887153340754_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Cert.RowDot Cert.Dense Cert.Spec

/-- The first layer of the q projection with its rectifier, at entry (p, q): the layer applied to row p. -/
theorem q_layer1 (x0 : T2 4096 1000) (x1 : T2 1000 2048) (x2 : T1 2048) (p : Fin 4096) (q : Fin 2048) :
    val_main_v4 (F := Ideal) x0 x1 x2 (ix2 p q) = relu (dense x1 (biasVec x2) (rowOf x0 p)) q := by
  rw [val_main_v4_apply, val_main_v3_apply, val_main_v0_apply, val_main_v2_apply, val_main_v1_apply, val_main_call0_v0_apply,
    val_main_call0_cst_apply]
  have el : ∀ k : Fin 1000, lidx_main_v0 (ix2 p q) k = ix2 p k := fun k => funext fun a => Fin.ext (by
    match a with | ⟨0, _⟩ => rfl | ⟨1, _⟩ => rfl)
  have er : ∀ k : Fin 1000, ridx_main_v0 (ix2 p q) k = ix2 k q := fun k => funext fun a => Fin.ext (by
    match a with | ⟨0, _⟩ => rfl | ⟨1, _⟩ => rfl)
  have eb : idx_main_v1 (idx_main_v2 (ix2 p q)) = ix1 q := funext fun a => Fin.ext (by
    match a with | ⟨0, _⟩ => rfl)
  simp only [el, er, eb]
  rfl

/-- The second layer of the q projection with its rectifier, at entry (p, q). -/
theorem q_layer2 (x0 : T2 4096 1000) (x1 : T2 1000 2048) (x2 : T1 2048) (x3 : T2 2048 1024) (x4 : T1 1024)
    (p : Fin 4096) (q : Fin 1024) :
    val_main_v9 (F := Ideal) x0 x1 x2 x3 x4 (ix2 p q)
      = relu (dense x3 (biasVec x4) (relu (dense x1 (biasVec x2) (rowOf x0 p)))) q := by
  rw [val_main_v9_apply, val_main_v8_apply, val_main_v5_apply, val_main_v7_apply, val_main_v6_apply, val_main_call1_v0_apply,
    val_main_call1_cst_apply]
  have el : ∀ k : Fin 2048, lidx_main_v5 (ix2 p q) k = ix2 p k := fun k => funext fun a => Fin.ext (by
    match a with | ⟨0, _⟩ => rfl | ⟨1, _⟩ => rfl)
  have er : ∀ k : Fin 2048, ridx_main_v5 (ix2 p q) k = ix2 k q := fun k => funext fun a => Fin.ext (by
    match a with | ⟨0, _⟩ => rfl | ⟨1, _⟩ => rfl)
  have eb : idx_main_v6 (idx_main_v7 (ix2 p q)) = ix1 q := funext fun a => Fin.ext (by
    match a with | ⟨0, _⟩ => rfl)
  simp only [el, er, eb, q_layer1]
  rfl

/-- The third layer of the q projection, at entry (p, q): the three layers applied to row p. -/
theorem q_layer3 (x0 : T2 4096 1000) (x1 : T2 1000 2048) (x2 : T1 2048) (x3 : T2 2048 1024) (x4 : T1 1024)
    (x5 : T2 1024 512) (x6 : T1 512) (p : Fin 4096) (q : Fin 512) :
    val_main_v13 (F := Ideal) x0 x1 x2 x3 x4 x5 x6 (ix2 p q)
      = mlpRow x1 x2 x3 x4 x5 x6 (rowOf x0 p) q := by
  rw [val_main_v13_apply, val_main_v10_apply, val_main_v12_apply, val_main_v11_apply]
  have el : ∀ k : Fin 1024, lidx_main_v10 (ix2 p q) k = ix2 p k := fun k => funext fun a => Fin.ext (by
    match a with | ⟨0, _⟩ => rfl | ⟨1, _⟩ => rfl)
  have er : ∀ k : Fin 1024, ridx_main_v10 (ix2 p q) k = ix2 k q := fun k => funext fun a => Fin.ext (by
    match a with | ⟨0, _⟩ => rfl | ⟨1, _⟩ => rfl)
  have eb : idx_main_v11 (idx_main_v12 (ix2 p q)) = ix1 q := funext fun a => Fin.ext (by
    match a with | ⟨0, _⟩ => rfl)
  simp only [el, er, eb, q_layer2]
  rfl

/-- The q projection is the specification's three-layer map of the batch. -/
theorem q_proj (x0 : T2 4096 1000) (x1 : T2 1000 2048) (x2 : T1 2048) (x3 : T2 2048 1024) (x4 : T1 1024)
    (x5 : T2 1024 512) (x6 : T1 512) :
    val_main_v13 (F := Ideal) x0 x1 x2 x3 x4 x5 x6 = mlp x0 x1 x2 x3 x4 x5 x6 := by
  funext j
  obtain ⟨p, q, rfl⟩ : ∃ (p : Fin 4096) (q : Fin 512), j = ix2 p q := ⟨j 0, j 1, eq_ix2 j⟩
  exact q_layer3 x0 x1 x2 x3 x4 x5 x6 p q

/-- The first layer of the k projection with its rectifier, at entry (p, q): the layer applied to row p. -/
theorem k_layer1 (x0 : T2 4096 1000) (x7 : T2 1000 2048) (x8 : T1 2048) (p : Fin 4096) (q : Fin 2048) :
    val_main_v18 (F := Ideal) x0 x7 x8 (ix2 p q) = relu (dense x7 (biasVec x8) (rowOf x0 p)) q := by
  rw [val_main_v18_apply, val_main_v17_apply, val_main_v14_apply, val_main_v16_apply, val_main_v15_apply, val_main_call2_v0_apply,
    val_main_call2_cst_apply]
  have el : ∀ k : Fin 1000, lidx_main_v14 (ix2 p q) k = ix2 p k := fun k => funext fun a => Fin.ext (by
    match a with | ⟨0, _⟩ => rfl | ⟨1, _⟩ => rfl)
  have er : ∀ k : Fin 1000, ridx_main_v14 (ix2 p q) k = ix2 k q := fun k => funext fun a => Fin.ext (by
    match a with | ⟨0, _⟩ => rfl | ⟨1, _⟩ => rfl)
  have eb : idx_main_v15 (idx_main_v16 (ix2 p q)) = ix1 q := funext fun a => Fin.ext (by
    match a with | ⟨0, _⟩ => rfl)
  simp only [el, er, eb]
  rfl

/-- The second layer of the k projection with its rectifier, at entry (p, q). -/
theorem k_layer2 (x0 : T2 4096 1000) (x7 : T2 1000 2048) (x8 : T1 2048) (x9 : T2 2048 1024) (x10 : T1 1024)
    (p : Fin 4096) (q : Fin 1024) :
    val_main_v23 (F := Ideal) x0 x7 x8 x9 x10 (ix2 p q)
      = relu (dense x9 (biasVec x10) (relu (dense x7 (biasVec x8) (rowOf x0 p)))) q := by
  rw [val_main_v23_apply, val_main_v22_apply, val_main_v19_apply, val_main_v21_apply, val_main_v20_apply, val_main_call3_v0_apply,
    val_main_call3_cst_apply]
  have el : ∀ k : Fin 2048, lidx_main_v19 (ix2 p q) k = ix2 p k := fun k => funext fun a => Fin.ext (by
    match a with | ⟨0, _⟩ => rfl | ⟨1, _⟩ => rfl)
  have er : ∀ k : Fin 2048, ridx_main_v19 (ix2 p q) k = ix2 k q := fun k => funext fun a => Fin.ext (by
    match a with | ⟨0, _⟩ => rfl | ⟨1, _⟩ => rfl)
  have eb : idx_main_v20 (idx_main_v21 (ix2 p q)) = ix1 q := funext fun a => Fin.ext (by
    match a with | ⟨0, _⟩ => rfl)
  simp only [el, er, eb, k_layer1]
  rfl

/-- The third layer of the k projection, at entry (p, q): the three layers applied to row p. -/
theorem k_layer3 (x0 : T2 4096 1000) (x7 : T2 1000 2048) (x8 : T1 2048) (x9 : T2 2048 1024) (x10 : T1 1024)
    (x11 : T2 1024 512) (x12 : T1 512) (p : Fin 4096) (q : Fin 512) :
    val_main_v27 (F := Ideal) x0 x7 x8 x9 x10 x11 x12 (ix2 p q)
      = mlpRow x7 x8 x9 x10 x11 x12 (rowOf x0 p) q := by
  rw [val_main_v27_apply, val_main_v24_apply, val_main_v26_apply, val_main_v25_apply]
  have el : ∀ k : Fin 1024, lidx_main_v24 (ix2 p q) k = ix2 p k := fun k => funext fun a => Fin.ext (by
    match a with | ⟨0, _⟩ => rfl | ⟨1, _⟩ => rfl)
  have er : ∀ k : Fin 1024, ridx_main_v24 (ix2 p q) k = ix2 k q := fun k => funext fun a => Fin.ext (by
    match a with | ⟨0, _⟩ => rfl | ⟨1, _⟩ => rfl)
  have eb : idx_main_v25 (idx_main_v26 (ix2 p q)) = ix1 q := funext fun a => Fin.ext (by
    match a with | ⟨0, _⟩ => rfl)
  simp only [el, er, eb, k_layer2]
  rfl

/-- The k projection is the specification's three-layer map of the batch. -/
theorem k_proj (x0 : T2 4096 1000) (x7 : T2 1000 2048) (x8 : T1 2048) (x9 : T2 2048 1024) (x10 : T1 1024)
    (x11 : T2 1024 512) (x12 : T1 512) :
    val_main_v27 (F := Ideal) x0 x7 x8 x9 x10 x11 x12 = mlp x0 x7 x8 x9 x10 x11 x12 := by
  funext j
  obtain ⟨p, q, rfl⟩ : ∃ (p : Fin 4096) (q : Fin 512), j = ix2 p q := ⟨j 0, j 1, eq_ix2 j⟩
  exact k_layer3 x0 x7 x8 x9 x10 x11 x12 p q

/-- The first layer of the v projection with its rectifier, at entry (p, q): the layer applied to row p. -/
theorem v_layer1 (x0 : T2 4096 1000) (x13 : T2 1000 2048) (x14 : T1 2048) (p : Fin 4096) (q : Fin 2048) :
    val_main_v32 (F := Ideal) x0 x13 x14 (ix2 p q) = relu (dense x13 (biasVec x14) (rowOf x0 p)) q := by
  rw [val_main_v32_apply, val_main_v31_apply, val_main_v28_apply, val_main_v30_apply, val_main_v29_apply, val_main_call4_v0_apply,
    val_main_call4_cst_apply]
  have el : ∀ k : Fin 1000, lidx_main_v28 (ix2 p q) k = ix2 p k := fun k => funext fun a => Fin.ext (by
    match a with | ⟨0, _⟩ => rfl | ⟨1, _⟩ => rfl)
  have er : ∀ k : Fin 1000, ridx_main_v28 (ix2 p q) k = ix2 k q := fun k => funext fun a => Fin.ext (by
    match a with | ⟨0, _⟩ => rfl | ⟨1, _⟩ => rfl)
  have eb : idx_main_v29 (idx_main_v30 (ix2 p q)) = ix1 q := funext fun a => Fin.ext (by
    match a with | ⟨0, _⟩ => rfl)
  simp only [el, er, eb]
  rfl

/-- The second layer of the v projection with its rectifier, at entry (p, q). -/
theorem v_layer2 (x0 : T2 4096 1000) (x13 : T2 1000 2048) (x14 : T1 2048) (x15 : T2 2048 1024) (x16 : T1 1024)
    (p : Fin 4096) (q : Fin 1024) :
    val_main_v37 (F := Ideal) x0 x13 x14 x15 x16 (ix2 p q)
      = relu (dense x15 (biasVec x16) (relu (dense x13 (biasVec x14) (rowOf x0 p)))) q := by
  rw [val_main_v37_apply, val_main_v36_apply, val_main_v33_apply, val_main_v35_apply, val_main_v34_apply, val_main_call5_v0_apply,
    val_main_call5_cst_apply]
  have el : ∀ k : Fin 2048, lidx_main_v33 (ix2 p q) k = ix2 p k := fun k => funext fun a => Fin.ext (by
    match a with | ⟨0, _⟩ => rfl | ⟨1, _⟩ => rfl)
  have er : ∀ k : Fin 2048, ridx_main_v33 (ix2 p q) k = ix2 k q := fun k => funext fun a => Fin.ext (by
    match a with | ⟨0, _⟩ => rfl | ⟨1, _⟩ => rfl)
  have eb : idx_main_v34 (idx_main_v35 (ix2 p q)) = ix1 q := funext fun a => Fin.ext (by
    match a with | ⟨0, _⟩ => rfl)
  simp only [el, er, eb, v_layer1]
  rfl

/-- The third layer of the v projection, at entry (p, q): the three layers applied to row p. -/
theorem v_layer3 (x0 : T2 4096 1000) (x13 : T2 1000 2048) (x14 : T1 2048) (x15 : T2 2048 1024) (x16 : T1 1024)
    (x17 : T2 1024 512) (x18 : T1 512) (p : Fin 4096) (q : Fin 512) :
    val_main_v41 (F := Ideal) x0 x13 x14 x15 x16 x17 x18 (ix2 p q)
      = mlpRow x13 x14 x15 x16 x17 x18 (rowOf x0 p) q := by
  rw [val_main_v41_apply, val_main_v38_apply, val_main_v40_apply, val_main_v39_apply]
  have el : ∀ k : Fin 1024, lidx_main_v38 (ix2 p q) k = ix2 p k := fun k => funext fun a => Fin.ext (by
    match a with | ⟨0, _⟩ => rfl | ⟨1, _⟩ => rfl)
  have er : ∀ k : Fin 1024, ridx_main_v38 (ix2 p q) k = ix2 k q := fun k => funext fun a => Fin.ext (by
    match a with | ⟨0, _⟩ => rfl | ⟨1, _⟩ => rfl)
  have eb : idx_main_v39 (idx_main_v40 (ix2 p q)) = ix1 q := funext fun a => Fin.ext (by
    match a with | ⟨0, _⟩ => rfl)
  simp only [el, er, eb, v_layer2]
  rfl

/-- The v projection is the specification's three-layer map of the batch. -/
theorem v_proj (x0 : T2 4096 1000) (x13 : T2 1000 2048) (x14 : T1 2048) (x15 : T2 2048 1024) (x16 : T1 1024)
    (x17 : T2 1024 512) (x18 : T1 512) :
    val_main_v41 (F := Ideal) x0 x13 x14 x15 x16 x17 x18 = mlp x0 x13 x14 x15 x16 x17 x18 := by
  funext j
  obtain ⟨p, q, rfl⟩ : ∃ (p : Fin 4096) (q : Fin 512), j = ix2 p q := ⟨j 0, j 1, eq_ix2 j⟩
  exact v_layer3 x0 x13 x14 x15 x16 x17 x18 p q

end Cert.ReferenceIdeal.RefValue

end
-- ==== Proof.RefAttn.lean ====
/-
  The reference program's attention stages, read as the specification's heads, scores, weights and outputs.

  A projection is recast from 4096×512 to 4096×8×64 and its first two axes exchanged: entry (h, n, d) of the result
  is entry (n, 64·h + d) of the projection.  The scores contract the rectified heads of the first two projections
  over d and are divided by one constant; a row's scores are summed from zero, the small constant is added, and the
  scores are divided by that; the weights contract with the third projection's heads over the row index.
-/
import proofs.«107034_j21887153340754_1_alg».proof.Proof.Gen.ReferenceIdeal.Read
import proofs.«107034_j21887153340754_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Cert.RowDot Cert.Dense Cert.Spec

variable (x0 : T2 4096 1000) (x1 : T2 1000 2048) (x2 : T1 2048) (x3 : T2 2048 1024) (x4 : T1 1024) (x5 : T2 1024 512)
  (x6 : T1 512) (x7 : T2 1000 2048) (x8 : T1 2048) (x9 : T2 2048 1024) (x10 : T1 1024) (x11 : T2 1024 512) (x12 : T1 512)
  (x13 : T2 1000 2048) (x14 : T1 2048) (x15 : T2 2048 1024) (x16 : T1 1024) (x17 : T2 1024 512) (x18 : T1 512)
  (x19 : T2 512 1000) (x20 : T1 1000)

/-- The rectified heads of the first projection: entry (h, n, d) is the maximum of entry (n, 64·h + d) with zero. -/
theorem q_heads (h : Fin 8) (n : Fin 4096) (d : Fin 64) :
    val_main_v44 (F := Ideal) x0 x1 x2 x3 x4 x5 x6 (ix3 h n d) = max (heads (val_main_v13 (F := Ideal) x0 x1 x2 x3 x4 x5 x6) (ix3 h n d)) 0 := by
  rw [val_main_v44_apply, val_main_v43_apply, val_main_v42_apply, val_main_call6_v0_apply, val_main_call6_cst_apply]
  have e : idx_main_v42 (idx_main_v43 (ix3 h n d)) = ix2 n (hcol h d) := funext fun a => Fin.ext (by
    have hh := h.isLt
    have hd := d.isLt
    match a with
    | ⟨0, _⟩ => show ((n.val * 8 + h.val) * 64 + d.val) / 512 = n.val; omega
    | ⟨1, _⟩ => show ((n.val * 8 + h.val) * 64 + d.val) % 512 = h.val * 64 + d.val; omega)
  rw [e]
  generalize val_main_v13 (F := Ideal) x0 x1 x2 x3 x4 x5 x6 = X
  show max (X (ix2 n (hcol h d))) (Ideal.ofBits .f32 0x00000000#32) = _
  rw [Ideal.ofBits_zero_f32]
  rfl

/-- The rectified heads of the second projection. -/
theorem k_heads (h : Fin 8) (n : Fin 4096) (d : Fin 64) :
    val_main_v47 (F := Ideal) x0 x7 x8 x9 x10 x11 x12 (ix3 h n d) = max (heads (val_main_v27 (F := Ideal) x0 x7 x8 x9 x10 x11 x12) (ix3 h n d)) 0 := by
  rw [val_main_v47_apply, val_main_v46_apply, val_main_v45_apply, val_main_call7_v0_apply, val_main_call7_cst_apply]
  have e : idx_main_v45 (idx_main_v46 (ix3 h n d)) = ix2 n (hcol h d) := funext fun a => Fin.ext (by
    have hh := h.isLt
    have hd := d.isLt
    match a with
    | ⟨0, _⟩ => show ((n.val * 8 + h.val) * 64 + d.val) / 512 = n.val; omega
    | ⟨1, _⟩ => show ((n.val * 8 + h.val) * 64 + d.val) % 512 = h.val * 64 + d.val; omega)
  rw [e]
  generalize val_main_v27 (F := Ideal) x0 x7 x8 x9 x10 x11 x12 = X
  show max (X (ix2 n (hcol h d))) (Ideal.ofBits .f32 0x00000000#32) = _
  rw [Ideal.ofBits_zero_f32]
  rfl

/-- The heads of the third projection (no rectifier). -/
theorem v_heads (h : Fin 8) (n : Fin 4096) (d : Fin 64) :
    val_main_v49 (F := Ideal) x0 x13 x14 x15 x16 x17 x18 (ix3 h n d) = heads (val_main_v41 (F := Ideal) x0 x13 x14 x15 x16 x17 x18) (ix3 h n d) := by
  rw [val_main_v49_apply, val_main_v48_apply]
  have e : idx_main_v48 (idx_main_v49 (ix3 h n d)) = ix2 n (hcol h d) := funext fun a => Fin.ext (by
    have hh := h.isLt
    have hd := d.isLt
    match a with
    | ⟨0, _⟩ => show ((n.val * 8 + h.val) * 64 + d.val) / 512 = n.val; omega
    | ⟨1, _⟩ => show ((n.val * 8 + h.val) * 64 + d.val) % 512 = h.val * 64 + d.val; omega)
  rw [e]
  generalize val_main_v41 (F := Ideal) x0 x13 x14 x15 x16 x17 x18 = X
  rfl

/-- A score: the contraction over d of the rectified heads, divided by the square root of the constant. -/
theorem score_eq (h : Fin 8) (n m : Fin 4096) :
    val_main_v53 (F := Ideal) x0 x1 x2 x3 x4 x5 x6 x7 x8 x9 x10 x11 x12 (ix3 h n m) = score rScale (heads (val_main_v13 (F := Ideal) x0 x1 x2 x3 x4 x5 x6)) (heads (val_main_v27 (F := Ideal) x0 x7 x8 x9 x10 x11 x12)) h n m := by
  rw [val_main_v53_apply, val_main_v50_apply, val_main_v52_apply, val_main_v51_apply, val_main_cst_apply]
  have el : ∀ k : Fin 64, lidx_main_v50 (ix3 h n m) k = ix3 h n k := fun k => funext fun a => Fin.ext (by
    match a with | ⟨0, _⟩ => rfl | ⟨1, _⟩ => rfl | ⟨2, _⟩ => rfl)
  have er : ∀ k : Fin 64, ridx_main_v50 (ix3 h n m) k = ix3 h m k := fun k => funext fun a => Fin.ext (by
    match a with | ⟨0, _⟩ => rfl | ⟨1, _⟩ => rfl | ⟨2, _⟩ => rfl)
  simp only [el, er, q_heads, k_heads]
  generalize val_main_v13 (F := Ideal) x0 x1 x2 x3 x4 x5 x6 = X
  generalize val_main_v27 (F := Ideal) x0 x7 x8 x9 x10 x11 x12 = Y
  rfl

/-- A row's denominator: its scores summed from zero, plus the small constant. -/
theorem denom_eq (h : Fin 8) (n : Fin 4096) (z : Fin 1) :
    val_main_v57 (F := Ideal) x0 x1 x2 x3 x4 x5 x6 x7 x8 x9 x10 x11 x12 (ix3 h n z) = denom rScale (heads (val_main_v13 (F := Ideal) x0 x1 x2 x3 x4 x5 x6)) (heads (val_main_v27 (F := Ideal) x0 x7 x8 x9 x10 x11 x12)) h n := by
  rw [val_main_v57_apply, val_main_v55_apply, val_main_v54_apply, val_main_v56_apply, val_main_cst_1_apply,
    val_main_cst_0_apply]
  have e : ∀ k : Fin 4096, idx_main_v54 (idx_main_v55 (ix3 h n z)) k = ix3 h n k := fun k => funext fun a => Fin.ext (by
    match a with | ⟨0, _⟩ => rfl | ⟨1, _⟩ => rfl | ⟨2, _⟩ => rfl)
  simp only [e, score_eq]
  generalize val_main_v13 (F := Ideal) x0 x1 x2 x3 x4 x5 x6 = X
  generalize val_main_v27 (F := Ideal) x0 x7 x8 x9 x10 x11 x12 = Y
  show (Ideal.ofBits .f32 0x00000000#32 + ∑ k : Fin 4096, score rScale (heads X) (heads Y) h n k)
      + Ideal.ofBits .f32 0x322BCC77#32 = _
  rw [Ideal.ofBits_zero_f32, zero_add]
  rfl

/-- A weight: the score over its row's denominator. -/
theorem weight_eq (h : Fin 8) (n m : Fin 4096) :
    val_main_v59 (F := Ideal) x0 x1 x2 x3 x4 x5 x6 x7 x8 x9 x10 x11 x12 (ix3 h n m)
      = Ideal.div (score rScale (heads (val_main_v13 (F := Ideal) x0 x1 x2 x3 x4 x5 x6)) (heads (val_main_v27 (F := Ideal) x0 x7 x8 x9 x10 x11 x12)) h n m) (denom rScale (heads (val_main_v13 (F := Ideal) x0 x1 x2 x3 x4 x5 x6)) (heads (val_main_v27 (F := Ideal) x0 x7 x8 x9 x10 x11 x12)) h n) := by
  rw [val_main_v59_apply, val_main_v58_apply, score_eq]
  have e : idx_main_v58 (ix3 h n m) = ix3 h n (0 : Fin 1) := funext fun a => Fin.ext (by
    match a with | ⟨0, _⟩ => rfl | ⟨1, _⟩ => rfl | ⟨2, _⟩ => rfl)
  rw [e, denom_eq]
  rfl

/-- A head's output at (h, n, d): the weights of row n applied to column d of the third projection's head. -/
theorem attn_apply (h : Fin 8) (n : Fin 4096) (d : Fin 64) :
    val_main_v60 (F := Ideal) x0 x1 x2 x3 x4 x5 x6 x7 x8 x9 x10 x11 x12 x13 x14 x15 x16 x17 x18 (ix3 h n d)
      = attn rScale (heads (val_main_v13 (F := Ideal) x0 x1 x2 x3 x4 x5 x6)) (heads (val_main_v27 (F := Ideal) x0 x7 x8 x9 x10 x11 x12)) (heads (val_main_v41 (F := Ideal) x0 x13 x14 x15 x16 x17 x18)) (ix3 h n d) := by
  rw [val_main_v60_apply]
  have el : ∀ k : Fin 4096, lidx_main_v60 (ix3 h n d) k = ix3 h n k := fun k => funext fun a => Fin.ext (by
    match a with | ⟨0, _⟩ => rfl | ⟨1, _⟩ => rfl | ⟨2, _⟩ => rfl)
  have er : ∀ k : Fin 4096, ridx_main_v60 (ix3 h n d) k = ix3 h k d := fun k => funext fun a => Fin.ext (by
    match a with | ⟨0, _⟩ => rfl | ⟨1, _⟩ => rfl | ⟨2, _⟩ => rfl)
  simp only [el, er, weight_eq, v_heads]
  generalize val_main_v13 (F := Ideal) x0 x1 x2 x3 x4 x5 x6 = X
  generalize val_main_v27 (F := Ideal) x0 x7 x8 x9 x10 x11 x12 = Y
  generalize val_main_v41 (F := Ideal) x0 x13 x14 x15 x16 x17 x18 = Z
  rfl

/-- The attention stage is the specification's attention of the three projections' heads. -/
theorem attn_eq :
    val_main_v60 (F := Ideal) x0 x1 x2 x3 x4 x5 x6 x7 x8 x9 x10 x11 x12 x13 x14 x15 x16 x17 x18 = attn rScale (heads (val_main_v13 (F := Ideal) x0 x1 x2 x3 x4 x5 x6)) (heads (val_main_v27 (F := Ideal) x0 x7 x8 x9 x10 x11 x12)) (heads (val_main_v41 (F := Ideal) x0 x13 x14 x15 x16 x17 x18)) := by
  funext i
  obtain ⟨h, n, d, rfl⟩ : ∃ (h : Fin 8) (n : Fin 4096) (d : Fin 64), i = ix3 h n d := ⟨i 0, i 1, i 2, eq_ix3 i⟩
  exact attn_apply x0 x1 x2 x3 x4 x5 x6 x7 x8 x9 x10 x11 x12 x13 x14 x15 x16 x17 x18 h n d

end Cert.ReferenceIdeal.RefValue

end
-- ==== Proof.RefValue.lean ====
/-
  The reference program's result is the specification's function of the 21 argument arrays, at the scaling that
  divides a score by the square root of the constant.

  After the attention stage the heads are laid side by side again — the first two axes exchanged back and the
  4096×8×64 array recast to 4096×512, so entry (n, e) is entry (e / 64, n, e mod 64) — and one more dense map is
  applied to every row.  With the three projections and the attention stage read as the specification's maps, the
  whole chain is the specification's function.
-/
import proofs.«107034_j21887153340754_1_alg».proof.Proof.RefMlp
import proofs.«107034_j21887153340754_1_alg».proof.Proof.RefAttn

noncomputable section

open scoped BigOperators

namespace Cert.ReferenceIdeal.RefValue

open Cert.ReferenceIdeal Cert.ReferenceIdeal.Gen Cert.ReferenceIdeal.Read Idealize.ShloMosaic Idealize.ShloMosaic.ValueIdx
  Cert.RowDot Cert.Dense Cert.Spec

variable (x0 : T2 4096 1000) (x1 : T2 1000 2048) (x2 : T1 2048) (x3 : T2 2048 1024) (x4 : T1 1024) (x5 : T2 1024 512)
  (x6 : T1 512) (x7 : T2 1000 2048) (x8 : T1 2048) (x9 : T2 2048 1024) (x10 : T1 1024) (x11 : T2 1024 512) (x12 : T1 512)
  (x13 : T2 1000 2048) (x14 : T1 2048) (x15 : T2 2048 1024) (x16 : T1 1024) (x17 : T2 1024 512) (x18 : T1 512)
  (x19 : T2 512 1000) (x20 : T1 1000)

/-- The heads' outputs laid side by side: entry (n, e) of the recast array is entry (e / 64, n, e mod 64). -/
theorem flat_eq :
    val_main_v62 (F := Ideal) x0 x1 x2 x3 x4 x5 x6 x7 x8 x9 x10 x11 x12 x13 x14 x15 x16 x17 x18 = flat (val_main_v60 (F := Ideal) x0 x1 x2 x3 x4 x5 x6 x7 x8 x9 x10 x11 x12 x13 x14 x15 x16 x17 x18) := by
  funext j
  obtain ⟨n, e, rfl⟩ : ∃ (n : Fin 4096) (e : Fin 512), j = ix2 n e := ⟨j 0, j 1, eq_ix2 j⟩
  rw [val_main_v62_apply, val_main_v61_apply]
  have he := e.isLt
  have hi : idx_main_v61 (idx_main_v62 (ix2 n e))
      = ix3 (⟨e.val / 64, by omega⟩ : Fin 8) n (⟨e.val % 64, Nat.mod_lt _ (by decide)⟩ : Fin 64) :=
    funext fun a => Fin.ext (by
      match a with
      | ⟨0, _⟩ => show (n.val * 512 + e.val) / 64 % 8 = e.val / 64; omega
      | ⟨1, _⟩ => show (n.val * 512 + e.val) / 512 = n.val; omega
      | ⟨2, _⟩ => show (n.val * 512 + e.val) % 64 = e.val % 64; omega)
  rw [hi]
  generalize val_main_v60 (F := Ideal) x0 x1 x2 x3 x4 x5 x6 x7 x8 x9 x10 x11 x12 x13 x14 x15 x16 x17 x18 = A
  rfl

/-- The last dense map on every row of the flattened heads. -/
theorem out_eq :
    val_main_v66 (F := Ideal) x0 x1 x2 x3 x4 x5 x6 x7 x8 x9 x10 x11 x12 x13 x14 x15 x16 x17 x18 x19 x20 = outProj (val_main_v62 (F := Ideal) x0 x1 x2 x3 x4 x5 x6 x7 x8 x9 x10 x11 x12 x13 x14 x15 x16 x17 x18) x19 x20 := by
  funext j
  obtain ⟨n, c, rfl⟩ : ∃ (n : Fin 4096) (c : Fin 1000), j = ix2 n c := ⟨j 0, j 1, eq_ix2 j⟩
  rw [val_main_v66_apply, val_main_v63_apply, val_main_v65_apply, val_main_v64_apply]
  have el : ∀ k : Fin 512, lidx_main_v63 (ix2 n c) k = ix2 n k := fun k => funext fun a => Fin.ext (by
    match a with | ⟨0, _⟩ => rfl | ⟨1, _⟩ => rfl)
  have er : ∀ k : Fin 512, ridx_main_v63 (ix2 n c) k = ix2 k c := fun k => funext fun a => Fin.ext (by
    match a with | ⟨0, _⟩ => rfl | ⟨1, _⟩ => rfl)
  have eb : idx_main_v64 (idx_main_v65 (ix2 n c)) = ix1 c := funext fun a => Fin.ext (by
    match a with | ⟨0, _⟩ => rfl)
  simp only [el, er, eb]
  generalize val_main_v62 (F := Ideal) x0 x1 x2 x3 x4 x5 x6 x7 x8 x9 x10 x11 x12 x13 x14 x15 x16 x17 x18 = A
  rfl

/-- The reference program's result is the specification's function, dividing a score by the square root of the constant. -/
theorem ref_eq (x0 : Cert.Spec.T2 4096 1000) (x1 : Cert.Spec.T2 1000 2048) (x2 : Cert.Spec.T1 2048) (x3 : Cert.Spec.T2 2048 1024) (x4 : Cert.Spec.T1 1024) (x5 : Cert.Spec.T2 1024 512) (x6 : Cert.Spec.T1 512) (x7 : Cert.Spec.T2 1000 2048) (x8 : Cert.Spec.T1 2048) (x9 : Cert.Spec.T2 2048 1024) (x10 : Cert.Spec.T1 1024) (x11 : Cert.Spec.T2 1024 512) (x12 : Cert.Spec.T1 512) (x13 : Cert.Spec.T2 1000 2048) (x14 : Cert.Spec.T1 2048) (x15 : Cert.Spec.T2 2048 1024) (x16 : Cert.Spec.T1 1024) (x17 : Cert.Spec.T2 1024 512) (x18 : Cert.Spec.T1 512) (x19 : Cert.Spec.T2 512 1000) (x20 : Cert.Spec.T1 1000) :
    Cert.ReferenceIdeal.Read.val_main_v66 (F := Ideal) x0 x1 x2 x3 x4 x5 x6 x7 x8 x9 x10 x11 x12 x13 x14 x15 x16 x17 x18 x19 x20
      = Cert.Spec.G Cert.Spec.rScale x0 x1 x2 x3 x4 x5 x6 x7 x8 x9 x10 x11 x12 x13 x14 x15 x16 x17 x18 x19 x20 := by
  rw [out_eq, flat_eq, attn_eq, q_proj, k_proj, v_proj]
  rfl

end Cert.ReferenceIdeal.RefValue

end
-- ==== Proof.SpecCongr.lean ====
/-
  The whole function takes equal arrays to equal results.
-/
import proofs.«107034_j21887153340754_1_alg».proof.Proof.Spec

noncomputable section

namespace Cert.Spec

open Idealize.ShloMosaic

/-- Equal argument arrays give equal results. -/
theorem G_congr (sc : EReal → EReal)
    {a0 b0 : T2 4096 1000} {a1 b1 : T2 1000 2048} {a2 b2 : T1 2048} {a3 b3 : T2 2048 1024} {a4 b4 : T1 1024} {a5 b5 : T2 1024 512} {a6 b6 : T1 512} {a7 b7 : T2 1000 2048} {a8 b8 : T1 2048} {a9 b9 : T2 2048 1024} {a10 b10 : T1 1024} {a11 b11 : T2 1024 512} {a12 b12 : T1 512} {a13 b13 : T2 1000 2048} {a14 b14 : T1 2048} {a15 b15 : T2 2048 1024} {a16 b16 : T1 1024} {a17 b17 : T2 1024 512} {a18 b18 : T1 512} {a19 b19 : T2 512 1000} {a20 b20 : T1 1000}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    G sc a0 a1 a2 a3 a4 a5 a6 a7 a8 a9 a10 a11 a12 a13 a14 a15 a16 a17 a18 a19 a20 = G sc b0 b1 b2 b3 b4 b5 b6 b7 b8 b9 b10 b11 b12 b13 b14 b15 b16 b17 b18 b19 b20 := by
  subst h0 h1 h2 h3 h4 h5 h6 h7 h8 h9 h10 h11 h12 h13 h14 h15 h16 h17 h18 h19 h20
  rfl

end Cert.Spec

end
-- ==== Proof.lean ====
/-
  A three-projection, eight-head attention block computed by five kernel launches, against the same block written
  with whole-array operations, at the exact reading on the extended reals.

  The kernel program sends the 4096 rows of the input through three dense layers three times (three launches, 8
  blocks of 512 rows each), cuts the three 4096×512 projections into 8 heads of 64 columns, computes per head and
  per block of 512 rows the scores of the rectified rows scaled by 1/8, divides each row of scores by its sum plus a
  small constant, applies the weights to the third projection (a fourth launch over 8 × 8 points), lays the heads
  side by side again and applies one more dense map (a fifth launch).  The whole-array program does the same with
  products over all rows at once and divides the scores by the square root of 64.  Blocks of rows do not mix, sums
  are the same sums, every change of float format is the identity, and multiplying by 1/8 is dividing by the square
  root of 64 on every extended real; so both results are one function of the 21 argument arrays, with no condition
  on the inputs.  The idealization rewrote nothing, so it has nothing to preserve.
-/
import proofs.«107034_j21887153340754_1_alg».proof.Defs
import proofs.«107034_j21887153340754_1_alg».proof.Proof.Gen.Kernel
import proofs.«107034_j21887153340754_1_alg».proof.Proof.Gen.Kernel.Frame
import proofs.«107034_j21887153340754_1_alg».proof.Proof.Gen.KernelIdeal
import proofs.«107034_j21887153340754_1_alg».proof.Proof.Gen.KernelIdeal.Frame
import proofs.«107034_j21887153340754_1_alg».proof.Proof.Gen.ReferenceIdeal
import proofs.«107034_j21887153340754_1_alg».proof.Proof.Gen.Pre_finite_inputs
import proofs.«107034_j21887153340754_1_alg».proof.Proof.Gen.ReferenceIdeal.Run
import proofs.«107034_j21887153340754_1_alg».proof.Proof.Gen.ReferenceIdeal.Read
import proofs.«107034_j21887153340754_1_alg».proof.Proof.KRun
import proofs.«107034_j21887153340754_1_alg».proof.Proof.KValue
import proofs.«107034_j21887153340754_1_alg».proof.Proof.RefValue
import proofs.«107034_j21887153340754_1_alg».proof.Proof.SpecCongr
import Idealize.ShloMosaic.Adequacy
import Idealize.ShloMosaic.Init

noncomputable section

namespace Cert.Proof

open Idealize.ShloMosaic Idealize.SL.Sem

/-- The kernel program runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The whole-array program's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the one function of the argument arrays: the kernel program's with the
    scores scaled by 1/8, the whole-array program's with the scores divided by the square root of 64, which is the
    same scaling. -/
theorem algebraic : Cert.algebraic_KernelIdeal_ReferenceIdeal := by
  intro m ρ m' ρ' _ hagree
  refine ⟨fun c => Cert.Spec.G Cert.Spec.kScale (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20)), ?_, ?_⟩
  · exact (θ_run Cert.KernelIdeal.defs _ _).mono
      (fun _ h c => ⟨(h c).1.trans (Cert.KernelIdeal.KValue.out_val m ρ c), (h c).2⟩)
      (Cert.KernelIdeal.KRun.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20⟩ := hagree c
    refine (Cert.ReferenceIdeal.Read.val_main_v66_eq m' c).trans ?_
    refine (Cert.ReferenceIdeal.RefValue.ref_eq _ _ _ _ _ _ _ _ _ _ _ _ _ _ _ _ _ _ _ _ _).trans ?_
    rw [← Cert.Spec.scale_eq]
    exact Cert.Spec.G_congr Cert.Spec.kScale e0 e1 e2 e3 e4 e5 e6 e7 e8 e9 e10 e11 e12 e13 e14 e15 e16 e17 e18 e19 e20

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
